-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S100000 : Shape := ⟨1, ![100000]⟩
abbrev S128x64 : Shape := ⟨2, ![128, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S64x10 .f32) (main_arg7 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x10 .f32 := Host.absf main_arg6
  let main_cst_6 : FVec F S_ .f32 := constant S_ .f32 0x7F800000#32
  let main_v20 : FVec F S64x10 .f32 := broadcastInDim S64x10 ![] bcast_S_S64x10 main_cst_6
  let main_v21 : IVec S64x10 1 := cmpf .olt main_v19 main_v20
  let main_c_7 : IVec S_ 1 := constantI S_ 1 1#1
  let main_v22 : IVec S_ 1 := (fun x v => Host.reduce IntOp.andi x v reducesTo_S64x10_S_d0_1 h_S_) main_v21 main_c_7
  let main_v23 : IVec S_ 1 := andi main_v18 main_v22
  let main_v24 : FVec F S10 .f32 := Host.absf main_arg7
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  main_v28

def fn {F : FTy → Type} [FloatOps F] (main_arg0 : FVec F S100000x128 .f32) (main_arg1 : IVec S2x3200000 32) (main_arg2 : FVec F S3200000 .f32) (main_arg3 : IVec S100000 32) (main_arg4 : FVec F S128x64 .f32) (main_arg5 : FVec F S64 .f32) (main_arg6 : FVec F S64x10 .f32) (main_arg7 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S100000 : Shape := ⟨1, ![100000]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x3200000 : Shape := ⟨2, ![1, 3200000]⟩
abbrev S100000x64 : Shape := ⟨2, ![100000, 64]⟩
abbrev S10000x128 : Shape := ⟨2, ![10000, 128]⟩
abbrev S10000x64 : Shape := ⟨2, ![10000, 64]⟩
abbrev S1x64 : Shape := ⟨2, ![1, 64]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 153
  | .vmem => 40
  | .smem => 0
  | _ => 0

abbrev hbmTy0_0 (i : Nat) : BufTy := match i % 128 with
  | 0 => ⟨S100000x128, .f32⟩
  | 1 => ⟨S2x3200000, .i32⟩
  | 2 => ⟨S3200000, .f32⟩
  | 3 => ⟨S100000, .i32⟩
  | 4 => ⟨S128x64, .f32⟩
  | 5 => ⟨S64, .f32⟩
  | 6 => ⟨S64x10, .f32⟩
  | 7 => ⟨S10, .f32⟩
  | 8 => ⟨S1x3200000, .i32⟩
  | 9 => ⟨S3200000, .i32⟩
  | 10 => ⟨S1x3200000, .i32⟩
  | 11 => ⟨S3200000, .i32⟩
  | 12 => ⟨S100000x64, .f32⟩
  | 13 => ⟨S100000, .i32⟩
  | 14 => ⟨S3300000, .i32⟩
  | 15 => ⟨S3300000, .i32⟩
  | 16 => ⟨S_, .f32⟩
  | 17 => ⟨S100000, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000, .f32⟩
  | 40 => ⟨S3300000, .f32⟩
  | 41 => ⟨S_, .i32⟩
  | 42 => ⟨S3300000, .i32⟩
  | 43 => ⟨S3300000, .i1⟩
  | 44 => ⟨S_, .i32⟩
  | 45 => ⟨S3300000, .i32⟩
  | 46 => ⟨S3300000, .i32⟩
  | 47 => ⟨S3300000, .i32⟩
  | 48 => ⟨S3300000x1, .i32⟩
  | 49 => ⟨S3300000, .f32⟩
  | 50 => ⟨S3300000, .f32⟩
  | 51 => ⟨S_, .i32⟩
  | 52 => ⟨S3300000, .i32⟩
  | 53 => ⟨S3300000, .i1⟩
  | 54 => ⟨S_, .i32⟩
  | 55 => ⟨S3300000, .i32⟩
  | 56 => ⟨S3300000, .i32⟩
  | 57 => ⟨S3300000, .i32⟩
  | 58 => ⟨S3300000x1, .i32⟩
  | 59 => ⟨S3300000x64, .f32⟩
  | 60 => ⟨S3300000x1, .f32⟩
  | 61 => ⟨S3300000x64, .f32⟩
  | 62 => ⟨S3300000x64, .f32⟩
  | 63 => ⟨S_, .f32⟩
  | 64 => ⟨S100000x64, .f32⟩
  | 65 => ⟨S3300000x1, .i32⟩
  | 66 => ⟨S100000x64, .f32⟩
  | 67 => ⟨S100000x64, .f32⟩
  | 68 => ⟨S_, .i32⟩
  | 69 => ⟨S3300000, .i32⟩
  | 70 => ⟨S3300000, .i1⟩
  | 71 => ⟨S_, .i32⟩
  | 72 => ⟨S3300000, .i32⟩
  | 73 => ⟨S3300000, .i32⟩
  | 74 => ⟨S3300000, .i32⟩
  | 75 => ⟨S3300000x1, .i32⟩
  | 76 => ⟨S3300000x64, .f32⟩
  | 77 => ⟨S3300000x1, .f32⟩
  | 78 => ⟨S3300000x64, .f32⟩
  | 79 => ⟨S3300000x64, .f32⟩
  | 80 => ⟨S_, .f32⟩
  | 81 => ⟨S100000x64, .f32⟩
  | 82 => ⟨S3300000x1, .i32⟩
  | 83 => ⟨S100000x64, .f32⟩
  | 84 => ⟨S100000x64, .f32⟩
  | 85 => ⟨S_, .i32⟩
  | 86 => ⟨S3300000, .i32⟩
  | 87 => ⟨S3300000, .i1⟩
  | 88 => ⟨S_, .i32⟩
  | 89 => ⟨S3300000, .i32⟩
  | 90 => ⟨S3300000, .i32⟩
  | 91 => ⟨S3300000, .i32⟩
  | 92 => ⟨S3300000x1, .i32⟩
  | 93 => ⟨S3300000x64, .f32⟩
  | 94 => ⟨S3300000x1, .f32⟩
  | 95 => ⟨S3300000x64, .f32⟩
  | 96 => ⟨S3300000x64, .f32⟩
  | 97 => ⟨S_, .f32⟩
  | 98 => ⟨S100000x64, .f32⟩
  | 99 => ⟨S3300000x1, .i32⟩
  | 100 => ⟨S100000x64, .f32⟩
  | 101 => ⟨S100000x64, .f32⟩
  | 102 => ⟨S_, .i32⟩
  | 103 => ⟨S3300000, .i32⟩
  | 104 => ⟨S3300000, .i1⟩
  | 105 => ⟨S_, .i32⟩
  | 106 => ⟨S3300000, .i32⟩
  | 107 => ⟨S3300000, .i32⟩
  | 108 => ⟨S3300000, .i32⟩
  | 109 => ⟨S3300000x1, .i32⟩
  | 110 => ⟨S3300000x64, .f32⟩
  | 111 => ⟨S3300000x1, .f32⟩
  | 112 => ⟨S3300000x64, .f32⟩
  | 113 => ⟨S3300000x64, .f32⟩
  | 114 => ⟨S_, .f32⟩
  | 115 => ⟨S100000x64, .f32⟩
  | 116 => ⟨S3300000x1, .i32⟩
  | 117 => ⟨S100000x64, .f32⟩
  | 118 => ⟨S100000x64, .f32⟩
  | 119 => ⟨S_, .i32⟩
  | 120 => ⟨S3300000, .i32⟩
  | 121 => ⟨S3300000, .i1⟩
  | 122 => ⟨S_, .i32⟩
  | 123 => ⟨S3300000, .i32⟩
  | 124 => ⟨S3300000, .i32⟩
  | 125 => ⟨S3300000, .i32⟩
  | 126 => ⟨S3300000x1, .i32⟩
  | 127 => ⟨S3300000x64, .f32⟩
  | _ => ⟨S100000x128, .f32⟩

abbrev hbmTy0_1 (i : Nat) : BufTy := match i % 128 with
  | 0 => ⟨S3300000x1, .f32⟩
  | 1 => ⟨S3300000x64, .f32⟩
  | 2 => ⟨S3300000x64, .f32⟩
  | 3 => ⟨S_, .f32⟩
  | 4 => ⟨S100000x64, .f32⟩
  | 5 => ⟨S3300000x1, .i32⟩
  | 6 => ⟨S100000x64, .f32⟩
  | 7 => ⟨S100000x64, .f32⟩
  | 8 => ⟨S_, .f32⟩
  | 9 => ⟨S512x64, .f32⟩
  | 10 => ⟨S100000x1, .i32⟩
  | 11 => ⟨S512x64, .f32⟩
  | 12 => ⟨S_, .f32⟩
  | 13 => ⟨S100000, .f32⟩
  | 14 => ⟨S_, .f32⟩
  | 15 => ⟨S512, .f32⟩
  | 16 => ⟨S100000x1, .i32⟩
  | 17 => ⟨S512, .f32⟩
  | 18 => ⟨S_, .f32⟩
  | 19 => ⟨S512, .f32⟩
  | 20 => ⟨S512, .f32⟩
  | 21 => ⟨S512x1, .f32⟩
  | 22 => ⟨S512x64, .f32⟩
  | 23 => ⟨S512x64, .f32⟩
  | 24 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S512x64, .f32⟩
  | .local _ .vmem, ⟨37, _⟩ => ⟨S64x10, .f32⟩
  | .local _ .vmem, ⟨38, _⟩ => ⟨S10, .f32⟩
  | .local _ .vmem, ⟨39, _⟩ => ⟨S512x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_15 : Ref sig .tc := ⟨.hbm, 102, rfl⟩
abbrev main_v75 : Ref sig .tc := ⟨.hbm, 103, rfl⟩
abbrev main_v76 : Ref sig .tc := ⟨.hbm, 104, rfl⟩
abbrev main_c_16 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_17 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_c_18 : Ref sig .tc := ⟨.hbm, 119, rfl⟩
abbrev main_v89 : Ref sig .tc := ⟨.hbm, 120, rfl⟩
abbrev main_v90 : Ref sig .tc := ⟨.hbm, 121, rfl⟩
abbrev main_c_19 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_20 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_21 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_22 : Ref sig .tc := ⟨.hbm, 140, rfl⟩
abbrev main_v106 : Ref sig .tc := ⟨.hbm, 141, rfl⟩
abbrev main_cst_23 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_24 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg1_0 : Ref sig .tc := ⟨.vmem, 37, rfl⟩
abbrev cc6_stg2_0 : Ref sig .tc := ⟨.vmem, 38, rfl⟩
abbrev cc6_stg3_0 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem1_0 : DmaSem sig := 37
abbrev cc6_sem2_0 : DmaSem sig := 38
abbrev cc6_sem3_0 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x10 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S10 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x10 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S10000x64_S10000x64 : S10000x64.ShapeCasts S10000x64
  bcast_S_S512x64 : S_.BroadcastsInDim S512x64 (![] : Fin 0 → Fin S512x64.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x10_S64x10_0_0 : ∀ a, (![0, 0] : Fin 2 → Nat) a + S64x10.size a ≤ S64x10.size a
  h_S64x10 : 0 < S64x10.numel
  inb_S10_S10_0 : ∀ a, (![0] : Fin 1 → Nat) a + S10.size a ≤ S10.size a
  h_S10 : 0 < S10.numel
  shapeCasts_S10_S1x10 : S10.ShapeCasts S1x10
  broadcasts_S1x10_S512x10 : S1x10.Broadcasts S512x10
  reduces_S512x10_S512 : S512x10.Reduces [1] S512
  shapeCasts_S512_S512x1 : S512.ShapeCasts S512x1
  broadcasts_S512x1_S512x10 : S512x1.Broadcasts S512x10
  inb_S512x10_S512x10_0_0 : ∀ a, (![0, 0] : Fin 2 → Nat) a + S512x10.size a ≤ S512x10.size a
  h_S512x10 : 0 < S512x10.numel
  dot_S10000x128_S128x64_S10000x64_1_0_0_1_n_n_wf : DotDims.WF S10000x128 S128x64 S10000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x10_S512x10_1_0_0_1_n_n_wf : DotDims.WF S512x64 S64x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x64.size a ≤ S512x64.size a
  hwx6_0 : ∀ i : grid6.Coords, EltTy.bits .f32 = 32 ∨ (Rect.block (s := S512x64) S512x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x10.size a ≤ S64x10.size a
  hwx6_1 : ∀ i : grid6.Coords, EltTy.bits .f32 = 32 ∨ (Rect.block (s := S64x10) S64x10.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S10.size a ≤ S10.size a
  hwx6_2 : ∀ i : grid6.Coords, EltTy.bits .f32 = 32 ∨ (Rect.block (s := S10) S10.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S512x10.size a ≤ S512x10.size a
  hwx6_3 : ∀ i : grid6.Coords, EltTy.bits .f32 = 32 ∨ (Rect.block (s := S512x10) S512x10.size (cc6_transform_3 i) (hinb6_3 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v59) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v60) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v73) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v74) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v87) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v88) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v101) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v4) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v102) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v114) S512x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S64x10.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg7) S10.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v115) S512x10.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S100000 : Shape := ⟨1, ![100000]⟩
abbrev S128x64 : Shape := ⟨2, ![128, 64]⟩
abbrev S64 : Shape := ⟨1, ![64]⟩
abbrev S64x10 : Shape := ⟨2, ![64, 10]⟩
abbrev S10 : Shape := ⟨1, ![10]⟩
abbrev S100000x64 : Shape := ⟨2, ![100000, 64]⟩
abbrev S1x64 : Shape := ⟨2, ![1, 64]⟩
abbrev S_ : Shape := ⟨0, ![]⟩
abbrev S1x3200000 : Shape := ⟨2, ![1, 3200000]⟩
abbrev S3300000 : Shape := ⟨1, ![3300000]⟩
abbrev S3300000x1 : Shape := ⟨2, ![3300000, 1]⟩
abbrev S3300000x64 : Shape := ⟨2, ![3300000, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 207
  | .vmem => 0
  | .smem => 0
  | _ => 0

abbrev hbmTy0_0 (i : Nat) : BufTy := match i % 128 with
  | 0 => ⟨S100000x128, .f32⟩
  | 1 => ⟨S2x3200000, .i32⟩
  | 2 => ⟨S3200000, .f32⟩
  | 3 => ⟨S100000, .i32⟩
  | 4 => ⟨S128x64, .f32⟩
  | 5 => ⟨S64, .f32⟩
  | 6 => ⟨S64x10, .f32⟩
  | 7 => ⟨S10, .f32⟩
  | 8 => ⟨S100000x64, .f32⟩
  | 9 => ⟨S1x64, .f32⟩
  | 10 => ⟨S100000x64, .f32⟩
  | 11 => ⟨S100000x64, .f32⟩
  | 12 => ⟨S_, .f32⟩
  | 13 => ⟨S100000x64, .f32⟩
  | 14 => ⟨S100000x64, .f32⟩
  | 15 => ⟨S100000, .i32⟩
  | 16 => ⟨S1x3200000, .i32⟩
  | 17 => ⟨S3200000, .i32⟩
  | 18 => ⟨S3300000, .i32⟩
  | 19 => ⟨S1x3200000, .i32⟩
  | 20 => ⟨S3200000, .i32⟩
  | 21 => ⟨S3300000, .i32⟩
  | 22 => ⟨S_, .f32⟩
  | 23 => ⟨S100000, .f32⟩
  | 24 => ⟨S3300000, .f32⟩
  | 25 => ⟨S_, .f32⟩
  | 26 => ⟨S100000, .f32⟩
  | 27 => ⟨S3300000x1, .i32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000, .f32⟩
  | 56 => ⟨S3300000, .f32⟩
  | 57 => ⟨S_, .i32⟩
  | 58 => ⟨S3300000, .i32⟩
  | 59 => ⟨S3300000, .i1⟩
  | 60 => ⟨S_, .i32⟩
  | 61 => ⟨S3300000, .i32⟩
  | 62 => ⟨S3300000, .i32⟩
  | 63 => ⟨S3300000, .i32⟩
  | 64 => ⟨S3300000x1, .i32⟩
  | 65 => ⟨S3300000x64, .f32⟩
  | 66 => ⟨S3300000x1, .f32⟩
  | 67 => ⟨S3300000x64, .f32⟩
  | 68 => ⟨S3300000x64, .f32⟩
  | 69 => ⟨S_, .f32⟩
  | 70 => ⟨S100000x64, .f32⟩
  | 71 => ⟨S3300000x1, .i32⟩
  | 72 => ⟨S100000x64, .f32⟩
  | 73 => ⟨S_, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S100000x64, .f32⟩
  | 80 => ⟨S_, .i32⟩
  | 81 => ⟨S3300000, .i32⟩
  | 82 => ⟨S3300000, .i1⟩
  | 83 => ⟨S_, .i32⟩
  | 84 => ⟨S3300000, .i32⟩
  | 85 => ⟨S3300000, .i32⟩
  | 86 => ⟨S3300000, .i32⟩
  | 87 => ⟨S3300000x1, .i32⟩
  | 88 => ⟨S3300000x64, .f32⟩
  | 89 => ⟨S3300000x1, .f32⟩
  | 90 => ⟨S3300000x64, .f32⟩
  | 91 => ⟨S3300000x64, .f32⟩
  | 92 => ⟨S_, .f32⟩
  | 93 => ⟨S100000x64, .f32⟩
  | 94 => ⟨S3300000x1, .i32⟩
  | 95 => ⟨S100000x64, .f32⟩
  | 96 => ⟨S_, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S100000x64, .f32⟩
  | 103 => ⟨S_, .i32⟩
  | 104 => ⟨S3300000, .i32⟩
  | 105 => ⟨S3300000, .i1⟩
  | 106 => ⟨S_, .i32⟩
  | 107 => ⟨S3300000, .i32⟩
  | 108 => ⟨S3300000, .i32⟩
  | 109 => ⟨S3300000, .i32⟩
  | 110 => ⟨S3300000x1, .i32⟩
  | 111 => ⟨S3300000x64, .f32⟩
  | 112 => ⟨S3300000x1, .f32⟩
  | 113 => ⟨S3300000x64, .f32⟩
  | 114 => ⟨S3300000x64, .f32⟩
  | 115 => ⟨S_, .f32⟩
  | 116 => ⟨S100000x64, .f32⟩
  | 117 => ⟨S3300000x1, .i32⟩
  | 118 => ⟨S100000x64, .f32⟩
  | 119 => ⟨S_, .f32⟩
  | 120 => ⟨S100000x64, .f32⟩
  | 121 => ⟨S100000x64, .f32⟩
  | 122 => ⟨S_, .f32⟩
  | 123 => ⟨S100000x64, .f32⟩
  | 124 => ⟨S100000x64, .f32⟩
  | 125 => ⟨S100000x64, .f32⟩
  | 126 => ⟨S_, .i32⟩
  | 127 => ⟨S3300000, .i32⟩
  | _ => ⟨S100000x128, .f32⟩

abbrev hbmTy0_1 (i : Nat) : BufTy := match i % 128 with
  | 0 => ⟨S3300000, .i1⟩
  | 1 => ⟨S_, .i32⟩
  | 2 => ⟨S3300000, .i32⟩
  | 3 => ⟨S3300000, .i32⟩
  | 4 => ⟨S3300000, .i32⟩
  | 5 => ⟨S3300000x1, .i32⟩
  | 6 => ⟨S3300000x64, .f32⟩
  | 7 => ⟨S3300000x1, .f32⟩
  | 8 => ⟨S3300000x64, .f32⟩
  | 9 => ⟨S3300000x64, .f32⟩
  | 10 => ⟨S_, .f32⟩
  | 11 => ⟨S100000x64, .f32⟩
  | 12 => ⟨S3300000x1, .i32⟩
  | 13 => ⟨S100000x64, .f32⟩
  | 14 => ⟨S_, .f32⟩
  | 15 => ⟨S100000x64, .f32⟩
  | 16 => ⟨S100000x64, .f32⟩
  | 17 => ⟨S_, .f32⟩
  | 18 => ⟨S100000x64, .f32⟩
  | 19 => ⟨S100000x64, .f32⟩
  | 20 => ⟨S100000x64, .f32⟩
  | 21 => ⟨S_, .i32⟩
  | 22 => ⟨S3300000, .i32⟩
  | 23 => ⟨S3300000, .i1⟩
  | 24 => ⟨S_, .i32⟩
  | 25 => ⟨S3300000, .i32⟩
  | 26 => ⟨S3300000, .i32⟩
  | 27 => ⟨S3300000, .i32⟩
  | 28 => ⟨S3300000x1, .i32⟩
  | 29 => ⟨S3300000x64, .f32⟩
  | 30 => ⟨S3300000x1, .f32⟩
  | 31 => ⟨S3300000x64, .f32⟩
  | 32 => ⟨S3300000x64, .f32⟩
  | 33 => ⟨S_, .f32⟩
  | 34 => ⟨S100000x64, .f32⟩
  | 35 => ⟨S3300000x1, .i32⟩
  | 36 => ⟨S100000x64, .f32⟩
  | 37 => ⟨S_, .f32⟩
  | 38 => ⟨S100000x64, .f32⟩
  | 39 => ⟨S100000x64, .f32⟩
  | 40 => ⟨S_, .f32⟩
  | 41 => ⟨S100000x64, .f32⟩
  | 42 => ⟨S100000x64, .f32⟩
  | 43 => ⟨S100000x64, .f32⟩
  | 44 => ⟨S_, .f32⟩
  | 45 => ⟨S512x64, .f32⟩
  | 46 => ⟨S100000x1, .i32⟩
  | 47 => ⟨S512x64, .f32⟩
  | 48 => ⟨S_, .f32⟩
  | 49 => ⟨S100000, .f32⟩
  | 50 => ⟨S_, .f32⟩
  | 51 => ⟨S512, .f32⟩
  | 52 => ⟨S100000x1, .i32⟩
  | 53 => ⟨S512, .f32⟩
  | 54 => ⟨S_, .f32⟩
  | 55 => ⟨S512, .f32⟩
  | 56 => ⟨S512, .f32⟩
  | 57 => ⟨S512x1, .f32⟩
  | 58 => ⟨S512x64, .f32⟩
  | 59 => ⟨S512x64, .f32⟩
  | 60 => ⟨S512x10, .f32⟩
  | 61 => ⟨S1x10, .f32⟩
  | 62 => ⟨S512x10, .f32⟩
  | 63 => ⟨S512x10, .f32⟩
  | 64 => ⟨S_, .f32⟩
  | 65 => ⟨S512, .f32⟩
  | 66 => ⟨S_, .f32⟩
  | 67 => ⟨S512, .f32⟩
  | 68 => ⟨S512, .f32⟩
  | 69 => ⟨S512x1, .f32⟩
  | 70 => ⟨S512x10, .f32⟩
  | 71 => ⟨S512x10, .f32⟩
  | 72 => ⟨S512x10, .f32⟩
  | 73 => ⟨S_, .f32⟩
  | 74 => ⟨S512, .f32⟩
  | 75 => ⟨S512x1, .f32⟩
  | 76 => ⟨S512x1, .f32⟩
  | 77 => ⟨S512x10, .f32⟩
  | 78 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_call1_v0 : Ref sig .tc := ⟨.hbm, 34, rfl⟩
abbrev main_call1_v1 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_6 : Ref sig .tc := ⟨.hbm, 57, rfl⟩
abbrev main_v37 : Ref sig .tc := ⟨.hbm, 58, rfl⟩
abbrev main_v38 : Ref sig .tc := ⟨.hbm, 59, rfl⟩
abbrev main_c_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_11 : Ref sig .tc := ⟨.hbm, 80, rfl⟩
abbrev main_v55 : Ref sig .tc := ⟨.hbm, 81, rfl⟩
abbrev main_v56 : Ref sig .tc := ⟨.hbm, 82, rfl⟩
abbrev main_c_12 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_13 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_14 : Ref sig .tc := ⟨.hbm, 96, rfl⟩
abbrev main_v68 : Ref sig .tc := ⟨.hbm, 97, rfl⟩
abbrev main_v69 : Ref sig .tc := ⟨.hbm, 98, rfl⟩
abbrev main_cst_15 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_18 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_19 : Ref sig .tc := ⟨.hbm, 119, rfl⟩
abbrev main_v86 : Ref sig .tc := ⟨.hbm, 120, rfl⟩
abbrev main_v87 : Ref sig .tc := ⟨.hbm, 121, rfl⟩
abbrev main_cst_20 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c_21 : Ref sig .tc := ⟨.hbm, 126, rfl⟩
abbrev main_v91 : Ref sig .tc := ⟨.hbm, 127, rfl⟩
abbrev main_v92 : Ref sig .tc := ⟨.hbm, 128, rfl⟩
abbrev main_c_22 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_23 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_24 : Ref sig .tc := ⟨.hbm, 142, rfl⟩
abbrev main_v104 : Ref sig .tc := ⟨.hbm, 143, rfl⟩
abbrev main_v105 : Ref sig .tc := ⟨.hbm, 144, rfl⟩
abbrev main_cst_25 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_c_26 : Ref sig .tc := ⟨.hbm, 149, rfl⟩
abbrev main_v109 : Ref sig .tc := ⟨.hbm, 150, rfl⟩
abbrev main_v110 : Ref sig .tc := ⟨.hbm, 151, rfl⟩
abbrev main_c_27 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_cst_28 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_29 : Ref sig .tc := ⟨.hbm, 165, rfl⟩
abbrev main_v122 : Ref sig .tc := ⟨.hbm, 166, rfl⟩
abbrev main_v123 : Ref sig .tc := ⟨.hbm, 167, rfl⟩
abbrev main_cst_30 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_cst_31 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_cst_32 : Ref sig .tc := ⟨.hbm, 176, rfl⟩
abbrev main_v130 : Ref sig .tc := ⟨.hbm, 177, rfl⟩
abbrev main_cst_33 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_cst_34 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_call2_cst : Ref sig .tc := ⟨.hbm, 192, rfl⟩
abbrev main_call2_v0 : Ref sig .tc := ⟨.hbm, 193, rfl⟩
abbrev main_call2_cst_0 : Ref sig .tc := ⟨.hbm, 194, rfl⟩
abbrev main_call2_v1 : Ref sig .tc := ⟨.hbm, 195, rfl⟩
abbrev main_call2_v2 : Ref sig .tc := ⟨.hbm, 196, rfl⟩
abbrev main_call2_v3 : Ref sig .tc := ⟨.hbm, 197, rfl⟩
abbrev main_call2_v4 : Ref sig .tc := ⟨.hbm, 198, rfl⟩
abbrev main_call2_v5 : Ref sig .tc := ⟨.hbm, 199, rfl⟩
abbrev main_call2_v6 : Ref sig .tc := ⟨.hbm, 200, rfl⟩
abbrev main_call2_cst_1 : Ref sig .tc := ⟨.hbm, 201, rfl⟩
abbrev main_call2_v7 : Ref sig .tc := ⟨.hbm, 202, rfl⟩
abbrev main_call2_v8 : Ref sig .tc := ⟨.hbm, 203, rfl⟩
abbrev main_call2_v9 : Ref sig .tc := ⟨.hbm, 204, rfl⟩
abbrev main_call2_v10 : Ref sig .tc := ⟨.hbm, 205, rfl⟩
abbrev main_v143 : Ref sig .tc := ⟨.hbm, 206, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S512x64 : S_.BroadcastsInDim S512x64 (![] : Fin 0 → Fin S512x64.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  h_S_ : 0 < S_.numel
  bcast_S512x1_S512x10_0_1 : S512x1.BroadcastsInDim S512x10 (![0, 1] : Fin 2 → Fin S512x10.rank)
  dot_S100000x128_S128x64_S100000x64_1_0_0_1_n_n_wf : DotDims.WF S100000x128 S128x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x10_S512x10_1_0_0_1_n_n_wf : DotDims.WF S512x64 S64x10 S512x10 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

class Facts : Prop extends Facts₀ where

variable [Facts]
-- ==== Proof.KernelRun.lean ====
/-
  The idealized kernel's run with its result named.

  The program is seven pipelined kernel launches among stretches of host operations. Its buffers' contents at the
  boundaries between these segments are a fold from the launch memory: a stretch of host operations applies each
  operation's function to the contents before it, and a launch leaves each of its arrays at what its write-backs
  fold to and every other buffer as it was. Every weakly fair execution terminates, faults nowhere, and ends with
  every unscoped buffer at the last boundary's contents; read at the result buffer this names the result, and read
  at the arguments it gives them back unchanged.
-/
import proofs.«101261_j58583353918037_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the
    arguments as launched. -/
theorem run : θ_run defs (onTc (τ := τ) (main (F := F))) ⟨m, fun _ => 0, ρ⟩ (fun r => ∀ c : Dev nD,
      r.2.mem ((c.tc : Thread nD τ).loc main_v115) = W16 m ρ c (Proc.devRef .tc main_v115)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v115 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c)⟩)

end Cert.KernelIdeal.Whole

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«101261_j58583353918037_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«101261_j58583353918037_1_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibBiasRelu.lean ====
/-
  A bias row added to every row of a matrix and the result clamped below at zero, on the extended reals: the
  function itself, the kernel body's spelling of it (the row re-shaped in place, broadcast down the rows, added, and
  the maximum taken with a splat of the zero word), the reference's spelling (the bias vector broadcast into a 1×k row
  and then into the n×k array, added, and the maximum taken with a broadcast zero), and the fact that an entry depends
  on one entry of the matrix. The zero is kept as the value of the zero word, the same on both sides.
  Nothing here mentions a program.
-/
import Idealize.ShloMosaic.PureOps.Ideal.Laws
import Idealize.ShloMosaic.Lib.ValueIdx
import Idealize.ShloMosaic.Lib.Pipeline.Value
import proofs.«101261_j58583353918037_1_alg».proof.Proof.LibBlockReads
import proofs.«101261_j58583353918037_1_alg».proof.Proof.LibRowVector

noncomputable section

namespace Cert.Lib.BiasRelu

open Idealize.ShloMosaic Idealize.ShloMosaic.ValueIdx Cert.Lib.RowVector

variable {n n' k : Nat}

/-- Entry (p, q) is the maximum of X(p, q) + b(0, q) and zero. -/
def biasRelu (X : (⟨2, ![n, k]⟩ : Shape).Idx → EReal) (b : (⟨2, ![1, k]⟩ : Shape).Idx → EReal) :
    (⟨2, ![n, k]⟩ : Shape).Idx → EReal :=
  fun i => max (X i + b (ix2 (0 : Fin 1) (⟨(i 1).val, idx2_lt1 i⟩ : Fin k))) (Ideal.ofBits .f32 0x00000000#32)

theorem biasRelu_apply (X : (⟨2, ![n, k]⟩ : Shape).Idx → EReal) (b : (⟨2, ![1, k]⟩ : Shape).Idx → EReal)
    (p : Fin n) (q : Fin k) :
    biasRelu X b (ix2 p q) = max (X (ix2 p q) + b (ix2 0 q)) (Ideal.ofBits .f32 0x00000000#32) := rfl

/-- An entry depends on one entry of the matrix: equal entries give equal results. -/
theorem biasRelu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasRelu X' b (ix2 p' q) = biasRelu X b (ix2 p q) := by
  rw [biasRelu_apply, biasRelu_apply, h]

/-- The kernel body's spelling. -/
theorem body_eq (x0 : FVec Ideal ⟨2, ![n, k]⟩ .f32) (x2 : FVec Ideal ⟨2, ![1, k]⟩ .f32)
    (h0 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x0 h0) (broadcastTo ⟨2, ![n, k]⟩ (shapeCast ⟨2, ![1, k]⟩ x2 h2) hb))
      (broadcast ⟨2, ![n, k]⟩ (Scalar.ofBits (F := Ideal) .f32 0x00000000#32)) = biasRelu x0 x2 := by
  funext i
  obtain ⟨p, q, rfl⟩ : ∃ (p : Fin n) (q : Fin k), i = ix2 p q := ⟨i 0, i 1, eq_ix2 i⟩
  rw [maximumf_apply, addf_apply, shapeCast_self, shapeCast_self, Cert.Lib.BlockReads.broadcast_row_apply]
  rfl

/-- The reference's spelling: the bias vector as a 1×k row. -/
theorem host_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 : (⟨0, ![]⟩ : Shape).BroadcastsInDim ⟨2, ![n, k]⟩ ![]) :
    maximumf (addf X (broadcastInDim ⟨2, ![n, k]⟩ ![0, 1] h2 (broadcastInDim ⟨2, ![1, k]⟩ ![1] h1 b)))
      (broadcastInDim ⟨2, ![n, k]⟩ ![] h3 (constant (F := Ideal) ⟨0, ![]⟩ .f32 0x00000000#32)) = biasRelu X (asRow b) := by
  funext i
  obtain ⟨p, q, rfl⟩ : ∃ (p : Fin n) (q : Fin k), i = ix2 p q := ⟨i 0, i 1, eq_ix2 i⟩
  rw [maximumf_apply, addf_apply, bcastInDim_rows_apply, bcastInDim_eq_asRow, bcastInDim_scalar_apply]
  rfl

end Cert.Lib.BiasRelu

end
-- ==== Proof.LibSplitLayers.lean ====
/-
  Layers of a perceptron over the extended reals whose first matrix product is taken band by band.

  A layer is a product with a matrix, a bias row added to every row, and the maximum with zero. When the input is
  several arrays laid side by side and the matrix is cut into the matching bands of rows, the one product is the sum
  of the bands' products: a sum over the joined column index splits into the sums over each band's columns, and that
  uses only that addition of extended reals is associative and commutative. A band of a single column is the
  product of a column with a row. Every entry of a layer depends on one row of its inputs, so a block of rows of the
  result is the layer of that block of rows.
-/
import Idealize.ShloMosaic.PureOps.Ideal.Laws
import Idealize.ShloMosaic.Lib.ValueIdx
import Idealize.ShloMosaic.Lib.Pipeline.Value
import proofs.«101261_j58583353918037_1_alg».proof.Proof.LibBlockReads
import proofs.«101261_j58583353918037_1_alg».proof.Proof.LibMatProd
import proofs.«101261_j58583353918037_1_alg».proof.Proof.LibRowVector
import proofs.«101261_j58583353918037_1_alg».proof.Proof.LibBiasRelu

open scoped BigOperators

noncomputable section

namespace Cert.Lib.SplitLayers

open Idealize.ShloMosaic Idealize.ShloMosaic.ValueIdx Cert.Lib.MatProd Cert.Lib.BiasRelu Cert.Lib.RowVector

variable {r r' k k₁ k₂ k₃ n : Nat}

/-! ## One layer -/

/-- Entry (p, q) is max (∑ c, X(p, c) · W(c, q) + b(0, q)) 0. -/
def layer (X : (⟨2, ![r, k]⟩ : Shape).Idx → EReal) (W : (⟨2, ![k, n]⟩ : Shape).Idx → EReal)
    (b : (⟨2, ![1, n]⟩ : Shape).Idx → EReal) : (⟨2, ![r, n]⟩ : Shape).Idx → EReal :=
  biasRelu (matProd X W) b

/-- Row p' of the layer of X' is row p of the layer of X when row p' of X' is row p of X. -/
theorem layer_rows (X : (⟨2, ![r, k]⟩ : Shape).Idx → EReal) (X' : (⟨2, ![r', k]⟩ : Shape).Idx → EReal)
    (W : (⟨2, ![k, n]⟩ : Shape).Idx → EReal) (b : (⟨2, ![1, n]⟩ : Shape).Idx → EReal)
    (p' : Fin r') (p : Fin r) (q : Fin n) (h : ∀ c : Fin k, X' (ix2 p' c) = X (ix2 p c)) :
    layer X' W b (ix2 p' q) = layer X W b (ix2 p q) :=
  biasRelu_rows _ _ b p' p q (matProd_block X X' W W p' q p q h fun _ => rfl)

/-- The same for a layer without the maximum read through a final function applied entry by entry. -/
theorem matProd_rows (X : (⟨2, ![r, k]⟩ : Shape).Idx → EReal) (X' : (⟨2, ![r', k]⟩ : Shape).Idx → EReal)
    (W : (⟨2, ![k, n]⟩ : Shape).Idx → EReal) (p' : Fin r') (p : Fin r) (q : Fin n)
    (h : ∀ c : Fin k, X' (ix2 p' c) = X (ix2 p c)) : matProd X' W (ix2 p' q) = matProd X W (ix2 p q) :=
  matProd_block X X' W W p' q p q h fun _ => rfl

/-- A bias row broadcast down the rows and added, then the maximum with a splat of the zero word. -/
theorem relu_bias_eq (M : FVec Ideal ⟨2, ![r, n]⟩ .f32) (b : FVec Ideal ⟨2, ![1, n]⟩ .f32)
    (hb : (⟨2, ![1, n]⟩ : Shape).Broadcasts ⟨2, ![r, n]⟩) :
    maximumf (addf M (broadcastTo ⟨2, ![r, n]⟩ b hb))
      (broadcast ⟨2, ![r, n]⟩ (Scalar.ofBits (F := Ideal) .f32 0x00000000#32)) = biasRelu M b := by
  funext i
  obtain ⟨p, q, rfl⟩ : ∃ (p : Fin r) (q : Fin n), i = ix2 p q := ⟨i 0, i 1, eq_ix2 i⟩
  rw [maximumf_apply, addf_apply, Cert.Lib.BlockReads.broadcast_row_apply]
  rfl

/-- The reference's spelling of a layer: the host's product, the bias vector broadcast into a row and down the
    rows, the maximum with a broadcast zero. -/
theorem host_layer (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![r, k]⟩ .f32) (W : FVec Ideal ⟨2, ![k, n]⟩ .f32) (bv : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1])
    (h3 : (⟨0, ![]⟩ : Shape).BroadcastsInDim ⟨2, ![r, n]⟩ ![]) :
    maximumf (addf (Host.dotGeneral d none X W)
        (broadcastInDim ⟨2, ![r, n]⟩ ![0, 1] h2 (broadcastInDim ⟨2, ![1, n]⟩ ![1] h1 bv)))
      (broadcastInDim ⟨2, ![r, n]⟩ ![] h3 (constant (F := Ideal) ⟨0, ![]⟩ .f32 0x00000000#32))
    = layer X W (asRow bv) := by
  rw [Cert.Lib.BiasRelu.host_eq]
  unfold layer
  congr 1
  exact dotGeneral_eq_matProd d hlc hrc hln hrn hlb hrb none _ X W

/-! ## A column times a row -/

/-- A column broadcast along the rows times a row broadcast down the rows is the product of the r×1 by the 1×n
    array: the sum over the one contracted index. -/
theorem outer_eq (E : FVec Ideal ⟨2, ![r, 1]⟩ .f32) (w : FVec Ideal ⟨2, ![1, n]⟩ .f32)
    (he : (⟨2, ![r, 1]⟩ : Shape).Broadcasts ⟨2, ![r, n]⟩) (hw : (⟨2, ![1, n]⟩ : Shape).Broadcasts ⟨2, ![r, n]⟩) :
    mulf (broadcastTo ⟨2, ![r, n]⟩ E he) (broadcastTo ⟨2, ![r, n]⟩ w hw) = matProd E w := by
  funext i
  obtain ⟨p, q, rfl⟩ : ∃ (p : Fin r) (q : Fin n), i = ix2 p q := ⟨i 0, i 1, eq_ix2 i⟩
  rw [mulf_apply, Cert.Lib.BlockReads.broadcast_row_apply, matProd_apply, Fin.sum_univ_one]
  congr 1
  refine broadcastTo_apply E he (ix2 p q) (ix2 p 0) fun a => ?_
  match a with
  | ⟨0, _⟩ =>
    show p.val = if r = 1 then 0 else p.val
    split_ifs with hr
    · have := p.isLt; omega
    · rfl
  | ⟨1, _⟩ => rfl

/-! ## Two and three bands -/

/-- Entry (p, q) is max ((∑ U(p,c)·Wu(c,q) + ∑ V(p,c)·Wv(c,q)) + b(0,q)) 0. -/
def layer2 (U : (⟨2, ![r, k₁]⟩ : Shape).Idx → EReal) (V : (⟨2, ![r, k₂]⟩ : Shape).Idx → EReal)
    (Wu : (⟨2, ![k₁, n]⟩ : Shape).Idx → EReal) (Wv : (⟨2, ![k₂, n]⟩ : Shape).Idx → EReal)
    (b : (⟨2, ![1, n]⟩ : Shape).Idx → EReal) : (⟨2, ![r, n]⟩ : Shape).Idx → EReal :=
  biasRelu (fun i => matProd U Wu i + matProd V Wv i) b

/-- Entry (p, q) is max (((∑ U(p,c)·Wu(c,q) + ∑ V(p,c)·Wv(c,q)) + ∑ E(p,c)·We(c,q)) + b(0,q)) 0. -/
def layer3 (U : (⟨2, ![r, k₁]⟩ : Shape).Idx → EReal) (V : (⟨2, ![r, k₂]⟩ : Shape).Idx → EReal)
    (E : (⟨2, ![r, k₃]⟩ : Shape).Idx → EReal)
    (Wu : (⟨2, ![k₁, n]⟩ : Shape).Idx → EReal) (Wv : (⟨2, ![k₂, n]⟩ : Shape).Idx → EReal)
    (We : (⟨2, ![k₃, n]⟩ : Shape).Idx → EReal)
    (b : (⟨2, ![1, n]⟩ : Shape).Idx → EReal) : (⟨2, ![r, n]⟩ : Shape).Idx → EReal :=
  biasRelu (fun i => matProd U Wu i + matProd V Wv i + matProd E We i) b

theorem layer2_rows (U : (⟨2, ![r, k₁]⟩ : Shape).Idx → EReal) (U' : (⟨2, ![r', k₁]⟩ : Shape).Idx → EReal)
    (V : (⟨2, ![r, k₂]⟩ : Shape).Idx → EReal) (V' : (⟨2, ![r', k₂]⟩ : Shape).Idx → EReal)
    (Wu : (⟨2, ![k₁, n]⟩ : Shape).Idx → EReal) (Wv : (⟨2, ![k₂, n]⟩ : Shape).Idx → EReal)
    (b : (⟨2, ![1, n]⟩ : Shape).Idx → EReal) (p' : Fin r') (p : Fin r) (q : Fin n)
    (hU : ∀ c : Fin k₁, U' (ix2 p' c) = U (ix2 p c)) (hV : ∀ c : Fin k₂, V' (ix2 p' c) = V (ix2 p c)) :
    layer2 U' V' Wu Wv b (ix2 p' q) = layer2 U V Wu Wv b (ix2 p q) := by
  refine biasRelu_rows _ _ b p' p q ?_
  show matProd U' Wu (ix2 p' q) + matProd V' Wv (ix2 p' q) = matProd U Wu (ix2 p q) + matProd V Wv (ix2 p q)
  rw [matProd_rows U U' Wu p' p q hU, matProd_rows V V' Wv p' p q hV]

theorem layer3_rows (U : (⟨2, ![r, k₁]⟩ : Shape).Idx → EReal) (U' : (⟨2, ![r', k₁]⟩ : Shape).Idx → EReal)
    (V : (⟨2, ![r, k₂]⟩ : Shape).Idx → EReal) (V' : (⟨2, ![r', k₂]⟩ : Shape).Idx → EReal)
    (E : (⟨2, ![r, k₃]⟩ : Shape).Idx → EReal) (E' : (⟨2, ![r', k₃]⟩ : Shape).Idx → EReal)
    (Wu : (⟨2, ![k₁, n]⟩ : Shape).Idx → EReal) (Wv : (⟨2, ![k₂, n]⟩ : Shape).Idx → EReal)
    (We : (⟨2, ![k₃, n]⟩ : Shape).Idx → EReal)
    (b : (⟨2, ![1, n]⟩ : Shape).Idx → EReal) (p' : Fin r') (p : Fin r) (q : Fin n)
    (hU : ∀ c : Fin k₁, U' (ix2 p' c) = U (ix2 p c)) (hV : ∀ c : Fin k₂, V' (ix2 p' c) = V (ix2 p c))
    (hE : ∀ c : Fin k₃, E' (ix2 p' c) = E (ix2 p c)) :
    layer3 U' V' E' Wu Wv We b (ix2 p' q) = layer3 U V E Wu Wv We b (ix2 p q) := by
  refine biasRelu_rows _ _ b p' p q ?_
  show matProd U' Wu (ix2 p' q) + matProd V' Wv (ix2 p' q) + matProd E' We (ix2 p' q)
    = matProd U Wu (ix2 p q) + matProd V Wv (ix2 p q) + matProd E We (ix2 p q)
  rw [matProd_rows U U' Wu p' p q hU, matProd_rows V V' Wv p' p q hV, matProd_rows E E' We p' p q hE]

end Cert.Lib.SplitLayers

end
-- ==== Proof.LibGraphLayers.lean ====
/-
  The layers of a two-round graph encoder on the extended reals, as functions of whole arrays.

  A graph-convolution layer takes the aggregated messages A and the node features H (both r×k), two weight matrices
  R and Q (k×n) and a bias row b, and returns max ((A·R + b) + H·Q, 0) entry by entry; a linear head returns H·W + b.
  Here are the two functions, the kernel body's spelling of each (products accumulated into zeros over operands whose
  change of float format is the identity on the extended reals, the bias row broadcast down the rows, the maximum
  taken with a splat of the zero word), the reference's spelling (the host's dot_general, the bias vector broadcast
  into a row and then down the rows, the maximum with a broadcast zero), and the fact that row p of a result depends on
  row p of A and of H only, so that a block of rows of the result is the layer of that block of rows. Sums and the
  additions of extended reals are taken exactly in the order both programs write them, so no finiteness is asked.
  Nothing here mentions a program.
-/
import Idealize.ShloMosaic.PureOps.Ideal.Laws
import Idealize.ShloMosaic.Lib.ValueIdx
import Idealize.ShloMosaic.Lib.Pipeline.Value
import proofs.«101261_j58583353918037_1_alg».proof.Proof.LibBlockReads
import proofs.«101261_j58583353918037_1_alg».proof.Proof.LibMatProd
import proofs.«101261_j58583353918037_1_alg».proof.Proof.LibRowVector
import proofs.«101261_j58583353918037_1_alg».proof.Proof.LibBiasRelu
import proofs.«101261_j58583353918037_1_alg».proof.Proof.LibSplitLayers

open scoped BigOperators

noncomputable section

namespace Cert.Lib.GraphLayers

open Idealize.ShloMosaic Idealize.ShloMosaic.ValueIdx Cert.Lib.MatProd Cert.Lib.BiasRelu Cert.Lib.RowVector
  Cert.Lib.SplitLayers

variable {r r' k n : Nat}

/-! ## A change of float format is the identity on the extended reals -/

theorem truncf_id {s : Shape} {φ ψ : FTy} (a : FVec Ideal s φ) (h : ψ.bits < φ.bits) :
    (truncf ψ a h : FVec Ideal s ψ) = a := rfl

/-! ## One dense layer, in the kernel body's spelling -/

/-- A product into zeros of the operands (their format changed, which is the identity), the bias row broadcast down
    the rows and added, the maximum with a splat of the zero word: the layer max (X·W + b, 0). -/
theorem layer_body (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    {φ : FTy} (X : FVec Ideal ⟨2, ![r, k]⟩ φ) (W : FVec Ideal ⟨2, ![k, n]⟩ .f32) (b : FVec Ideal ⟨2, ![1, n]⟩ .f32)
    (hW : FTy.bits .bf16 < FTy.bits .f32) (hb : (⟨2, ![1, n]⟩ : Shape).Broadcasts ⟨2, ![r, n]⟩) :
    maximumf (addf (matmul d none X (truncf .bf16 W hW) (constant ⟨2, ![r, n]⟩ .f32 0x00000000#32))
        (broadcastTo ⟨2, ![r, n]⟩ b hb))
      (broadcast ⟨2, ![r, n]⟩ (Scalar.ofBits (F := Ideal) .f32 0x00000000#32)) = layer X W b := by
  rw [matmul_zero_eq_matProd d hlc hrc hln hrn hlb hrb none X (truncf .bf16 W hW)]
  exact relu_bias_eq (matProd X W) b hb

/-! ## The graph-convolution layer -/

/-- Entry (p, q) is max ((∑ c, A(p,c)·R(c,q) + b(0,q)) + ∑ c, H(p,c)·Q(c,q), 0). -/
def conv (A H : (⟨2, ![r, k]⟩ : Shape).Idx → EReal) (R Q : (⟨2, ![k, n]⟩ : Shape).Idx → EReal)
    (b : (⟨2, ![1, n]⟩ : Shape).Idx → EReal) : (⟨2, ![r, n]⟩ : Shape).Idx → EReal :=
  fun i => max ((matProd A R i + b (ix2 (0 : Fin 1) (⟨(i 1).val, idx2_lt1 i⟩ : Fin n))) + matProd H Q i)
    (Ideal.ofBits .f32 0x00000000#32)

theorem conv_apply (A H : (⟨2, ![r, k]⟩ : Shape).Idx → EReal) (R Q : (⟨2, ![k, n]⟩ : Shape).Idx → EReal)
    (b : (⟨2, ![1, n]⟩ : Shape).Idx → EReal) (p : Fin r) (q : Fin n) :
    conv A H R Q b (ix2 p q)
      = max ((matProd A R (ix2 p q) + b (ix2 0 q)) + matProd H Q (ix2 p q)) (Ideal.ofBits .f32 0x00000000#32) := rfl

/-- Row p' of the layer of (A', H') is row p of the layer of (A, H) when the rows of the inputs agree. -/
theorem conv_rows (A H : (⟨2, ![r, k]⟩ : Shape).Idx → EReal) (A' H' : (⟨2, ![r', k]⟩ : Shape).Idx → EReal)
    (R Q : (⟨2, ![k, n]⟩ : Shape).Idx → EReal) (b : (⟨2, ![1, n]⟩ : Shape).Idx → EReal)
    (p' : Fin r') (p : Fin r) (q : Fin n)
    (hA : ∀ c : Fin k, A' (ix2 p' c) = A (ix2 p c)) (hH : ∀ c : Fin k, H' (ix2 p' c) = H (ix2 p c)) :
    conv A' H' R Q b (ix2 p' q) = conv A H R Q b (ix2 p q) := by
  rw [conv_apply, conv_apply, matProd_rows A A' R p' p q hA, matProd_rows H H' Q p' p q hH]

/-- The kernel body's spelling. -/
theorem conv_body (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (A H : FVec Ideal ⟨2, ![r, k]⟩ .f32) (R Q : FVec Ideal ⟨2, ![k, n]⟩ .f32) (b : FVec Ideal ⟨2, ![1, n]⟩ .f32)
    (hW : FTy.bits .bf16 < FTy.bits .f32) (hb : (⟨2, ![1, n]⟩ : Shape).Broadcasts ⟨2, ![r, n]⟩) :
    maximumf (addf (addf (matmul d none (truncf .bf16 A hW) (truncf .bf16 R hW) (constant ⟨2, ![r, n]⟩ .f32 0x00000000#32))
          (broadcastTo ⟨2, ![r, n]⟩ b hb))
        (matmul d none (truncf .bf16 H hW) (truncf .bf16 Q hW) (constant ⟨2, ![r, n]⟩ .f32 0x00000000#32)))
      (broadcast ⟨2, ![r, n]⟩ (Scalar.ofBits (F := Ideal) .f32 0x00000000#32)) = conv A H R Q b := by
  rw [matmul_zero_eq_matProd d hlc hrc hln hrn hlb hrb none (truncf .bf16 A hW) (truncf .bf16 R hW),
    matmul_zero_eq_matProd d hlc hrc hln hrn hlb hrb none (truncf .bf16 H hW) (truncf .bf16 Q hW)]
  funext i
  obtain ⟨p, q, rfl⟩ : ∃ (p : Fin r) (q : Fin n), i = ix2 p q := ⟨i 0, i 1, eq_ix2 i⟩
  rw [maximumf_apply, addf_apply, addf_apply, Cert.Lib.BlockReads.broadcast_row_apply]
  rfl

/-- The reference's spelling. -/
theorem conv_host (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (A H : FVec Ideal ⟨2, ![r, k]⟩ .f32) (R Q : FVec Ideal ⟨2, ![k, n]⟩ .f32) (bv : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1])
    (h3 : (⟨0, ![]⟩ : Shape).BroadcastsInDim ⟨2, ![r, n]⟩ ![]) :
    maximumf (addf (addf (Host.dotGeneral d none A R)
          (broadcastInDim ⟨2, ![r, n]⟩ ![0, 1] h2 (broadcastInDim ⟨2, ![1, n]⟩ ![1] h1 bv)))
        (Host.dotGeneral d none H Q))
      (broadcastInDim ⟨2, ![r, n]⟩ ![] h3 (constant (F := Ideal) ⟨0, ![]⟩ .f32 0x00000000#32))
    = conv A H R Q (asRow bv) := by
  have e1 : Host.dotGeneral d none A R = matProd A R := dotGeneral_eq_matProd d hlc hrc hln hrn hlb hrb none _ A R
  have e2 : Host.dotGeneral d none H Q = matProd H Q := dotGeneral_eq_matProd d hlc hrc hln hrn hlb hrb none _ H Q
  rw [e1, e2]
  funext i
  obtain ⟨p, q, rfl⟩ : ∃ (p : Fin r) (q : Fin n), i = ix2 p q := ⟨i 0, i 1, eq_ix2 i⟩
  rw [maximumf_apply, addf_apply, addf_apply, bcastInDim_rows_apply, bcastInDim_eq_asRow, bcastInDim_scalar_apply]
  rfl

/-! ## The linear head -/

/-- Entry (p, q) is ∑ c, H(p,c)·W(c,q) + b(0,q). -/
def head (H : (⟨2, ![r, k]⟩ : Shape).Idx → EReal) (W : (⟨2, ![k, n]⟩ : Shape).Idx → EReal)
    (b : (⟨2, ![1, n]⟩ : Shape).Idx → EReal) : (⟨2, ![r, n]⟩ : Shape).Idx → EReal :=
  fun i => matProd H W i + b (ix2 (0 : Fin 1) (⟨(i 1).val, idx2_lt1 i⟩ : Fin n))

theorem head_apply (H : (⟨2, ![r, k]⟩ : Shape).Idx → EReal) (W : (⟨2, ![k, n]⟩ : Shape).Idx → EReal)
    (b : (⟨2, ![1, n]⟩ : Shape).Idx → EReal) (p : Fin r) (q : Fin n) :
    head H W b (ix2 p q) = matProd H W (ix2 p q) + b (ix2 0 q) := rfl

theorem head_rows (H : (⟨2, ![r, k]⟩ : Shape).Idx → EReal) (H' : (⟨2, ![r', k]⟩ : Shape).Idx → EReal)
    (W : (⟨2, ![k, n]⟩ : Shape).Idx → EReal) (b : (⟨2, ![1, n]⟩ : Shape).Idx → EReal)
    (p' : Fin r') (p : Fin r) (q : Fin n) (hH : ∀ c : Fin k, H' (ix2 p' c) = H (ix2 p c)) :
    head H' W b (ix2 p' q) = head H W b (ix2 p q) := by
  rw [head_apply, head_apply, matProd_rows H H' W p' p q hH]

/-- The kernel body's spelling: the left operand is already in the narrow format. -/
theorem head_body (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    {φ : FTy} (H : FVec Ideal ⟨2, ![r, k]⟩ φ) (W : FVec Ideal ⟨2, ![k, n]⟩ .f32) (b : FVec Ideal ⟨2, ![1, n]⟩ .f32)
    (hW : FTy.bits .bf16 < FTy.bits .f32) (hb : (⟨2, ![1, n]⟩ : Shape).Broadcasts ⟨2, ![r, n]⟩) :
    addf (matmul d none H (truncf .bf16 W hW) (constant ⟨2, ![r, n]⟩ .f32 0x00000000#32))
      (broadcastTo ⟨2, ![r, n]⟩ b hb) = head H W b := by
  rw [matmul_zero_eq_matProd d hlc hrc hln hrn hlb hrb none H (truncf .bf16 W hW)]
  funext i
  obtain ⟨p, q, rfl⟩ : ∃ (p : Fin r) (q : Fin n), i = ix2 p q := ⟨i 0, i 1, eq_ix2 i⟩
  rw [addf_apply, Cert.Lib.BlockReads.broadcast_row_apply]
  rfl

/-- The reference's spelling. -/
theorem head_host (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (H : FVec Ideal ⟨2, ![r, k]⟩ .f32) (W : FVec Ideal ⟨2, ![k, n]⟩ .f32) (bv : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1]) :
    addf (Host.dotGeneral d none H W)
      (broadcastInDim ⟨2, ![r, n]⟩ ![0, 1] h2 (broadcastInDim ⟨2, ![1, n]⟩ ![1] h1 bv)) = head H W (asRow bv) := by
  have e1 : Host.dotGeneral d none H W = matProd H W := dotGeneral_eq_matProd d hlc hrc hln hrn hlb hrb none _ H W
  rw [e1]
  funext i
  obtain ⟨p, q, rfl⟩ : ∃ (p : Fin r) (q : Fin n), i = ix2 p q := ⟨i 0, i 1, eq_ix2 i⟩
  rw [addf_apply, bcastInDim_rows_apply, bcastInDim_eq_asRow]
  rfl

end Cert.Lib.GraphLayers

end
-- ==== Proof.LibSigmoidLayer.lean ====
/-
  The last layer of a perceptron with the logistic function, over the extended reals.

  Entry (p, q) is logistic (∑ c, X(p, c) · W(c, q) + b(0, q)), where logistic x = 1 / (1 + e^(-x)) with the
  conventions of the extended reals at the infinities. A kernel's one logistic operation and the reference's
  expansion of it into a negation, an exponential, an addition to one and a quotient of one are this one function;
  the pattern 0x3F800000 is the real 1.
-/
import Idealize.ShloMosaic.PureOps.Ideal.Laws
import Idealize.ShloMosaic.Lib.ValueIdx
import Idealize.ShloMosaic.Lib.Pipeline.Value
import proofs.«101261_j58583353918037_1_alg».proof.Proof.LibBlockReads
import proofs.«101261_j58583353918037_1_alg».proof.Proof.LibMatProd
import proofs.«101261_j58583353918037_1_alg».proof.Proof.LibRowVector
import proofs.«101261_j58583353918037_1_alg».proof.Proof.LibSplitLayers

open scoped BigOperators

noncomputable section

namespace Cert.Lib.SigmoidLayer

open Idealize.ShloMosaic Idealize.ShloMosaic.ValueIdx Cert.Lib.MatProd Cert.Lib.RowVector Cert.Lib.SplitLayers

variable {r r' k n : Nat}

/-- Entry (p, q) is logistic (∑ c, X(p, c) · W(c, q) + b(0, q)). -/
def sigLayer (X : (⟨2, ![r, k]⟩ : Shape).Idx → EReal) (W : (⟨2, ![k, n]⟩ : Shape).Idx → EReal)
    (b : (⟨2, ![1, n]⟩ : Shape).Idx → EReal) : (⟨2, ![r, n]⟩ : Shape).Idx → EReal :=
  fun i => Ideal.logistic (matProd X W i + b (ix2 (0 : Fin 1) (⟨(i 1).val, idx2_lt1 i⟩ : Fin n)))

theorem sigLayer_apply (X : (⟨2, ![r, k]⟩ : Shape).Idx → EReal) (W : (⟨2, ![k, n]⟩ : Shape).Idx → EReal)
    (b : (⟨2, ![1, n]⟩ : Shape).Idx → EReal) (p : Fin r) (q : Fin n) :
    sigLayer X W b (ix2 p q) = Ideal.logistic (matProd X W (ix2 p q) + b (ix2 0 q)) := rfl

/-- An entry depends on one row of the input. -/
theorem sigLayer_rows (X : (⟨2, ![r, k]⟩ : Shape).Idx → EReal) (X' : (⟨2, ![r', k]⟩ : Shape).Idx → EReal)
    (W : (⟨2, ![k, n]⟩ : Shape).Idx → EReal) (b : (⟨2, ![1, n]⟩ : Shape).Idx → EReal)
    (p' : Fin r') (p : Fin r) (q : Fin n) (h : ∀ c : Fin k, X' (ix2 p' c) = X (ix2 p c)) :
    sigLayer X' W b (ix2 p' q) = sigLayer X W b (ix2 p q) := by
  rw [sigLayer_apply, sigLayer_apply, matProd_rows X X' W p' p q h]

/-- The kernel body's spelling: the product into zeros, the bias row broadcast down the rows, the logistic. -/
theorem body_sig {φ₁ φ₂ : FTy} (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![r, k]⟩ φ₁) (W : FVec Ideal ⟨2, ![k, n]⟩ φ₂) (b : FVec Ideal ⟨2, ![1, n]⟩ .f32)
    (hb : (⟨2, ![1, n]⟩ : Shape).Broadcasts ⟨2, ![r, n]⟩) :
    logistic (addf (matmul d none X W (constant ⟨2, ![r, n]⟩ .f32 0x00000000#32)) (broadcastTo ⟨2, ![r, n]⟩ b hb))
      = sigLayer X W b := by
  rw [matmul_zero_eq_matProd d hlc hrc hln hrn hlb hrb none]
  funext i
  obtain ⟨p, q, rfl⟩ : ∃ (p : Fin r) (q : Fin n), i = ix2 p q := ⟨i 0, i 1, eq_ix2 i⟩
  show Ideal.logistic (addf (matProd X W) (broadcastTo ⟨2, ![r, n]⟩ b hb) (ix2 p q)) = _
  rw [addf_apply, Cert.Lib.BlockReads.broadcast_row_apply]
  rfl

/-- The pattern of 1.0 is the real 1. -/
theorem ofBits_one : Ideal.ofBits .f32 0x3F800000#32 = 1 := by
  simp [Ideal.ofBits, Ideal.ieee, -EReal.coe_mul]; norm_num

/-- The reference's spelling: one over one plus the exponential of the negated affine layer. -/
theorem host_sig (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![r, k]⟩ .f32) (W : FVec Ideal ⟨2, ![k, n]⟩ .f32) (bv : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1])
    (h3 : (⟨0, ![]⟩ : Shape).BroadcastsInDim ⟨2, ![r, n]⟩ ![]) :
    Host.divf (broadcastInDim ⟨2, ![r, n]⟩ ![] h3 (constant (F := Ideal) ⟨0, ![]⟩ .f32 0x3F800000#32))
      (addf (broadcastInDim ⟨2, ![r, n]⟩ ![] h3 (constant (F := Ideal) ⟨0, ![]⟩ .f32 0x3F800000#32))
        (Host.exp (Host.negf (addf (Host.dotGeneral d none X W)
          (broadcastInDim ⟨2, ![r, n]⟩ ![0, 1] h2 (broadcastInDim ⟨2, ![1, n]⟩ ![1] h1 bv))))))
    = sigLayer X W (asRow bv) := by
  have e3 : Host.dotGeneral d none X W = matProd X W := dotGeneral_eq_matProd d hlc hrc hln hrn hlb hrb none _ X W
  funext i
  obtain ⟨p, q, rfl⟩ : ∃ (p : Fin r) (q : Fin n), i = ix2 p q := ⟨i 0, i 1, eq_ix2 i⟩
  have e1 : broadcastInDim ⟨2, ![r, n]⟩ ![] h3 (constant (F := Ideal) ⟨0, ![]⟩ .f32 0x3F800000#32) (ix2 p q) = 1 := by
    rw [bcastInDim_scalar_apply, constant_apply, ofBits_one]
  have e2 : addf (Host.dotGeneral d none X W)
      (broadcastInDim ⟨2, ![r, n]⟩ ![0, 1] h2 (broadcastInDim ⟨2, ![1, n]⟩ ![1] h1 bv)) (ix2 p q)
      = matProd X W (ix2 p q) + asRow bv (ix2 0 q) := by
    rw [addf_apply, e3, bcastInDim_rows_apply, bcastInDim_eq_asRow]
  show Ideal.div (broadcastInDim ⟨2, ![r, n]⟩ ![] h3 (constant (F := Ideal) ⟨0, ![]⟩ .f32 0x3F800000#32) (ix2 p q))
      (broadcastInDim ⟨2, ![r, n]⟩ ![] h3 (constant (F := Ideal) ⟨0, ![]⟩ .f32 0x3F800000#32) (ix2 p q)
        + Ideal.exp (-(addf (Host.dotGeneral d none X W)
          (broadcastInDim ⟨2, ![r, n]⟩ ![0, 1] h2 (broadcastInDim ⟨2, ![1, n]⟩ ![1] h1 bv)) (ix2 p q)))) = _
  rw [e1, e2]
  rfl

end Cert.Lib.SigmoidLayer

end
-- ==== Proof.LibLayerReads.lean ====
/-
  Entries of the dense layers read at an arbitrary index of the result, on the extended reals.

  An entry of a matrix product depends on one row of the left operand and one column of the right; an entry of a
  bias-and-clamp on one entry of the matrix and one entry of the bias row; an entry of a logistic layer on one row of
  the input, one column of the weights and one entry of the bias row. So a layer of a block of rows, read at a row
  and a column of the block, is the layer of the whole arrays read at the index that row and column have in the
  whole. The statements take the index of the whole as it comes (not split into coordinates), with the agreement
  of the rows, columns and bias entries as hypotheses. Nothing here mentions a program.
-/
import Idealize.ShloMosaic.PureOps.Ideal.Laws
import Idealize.ShloMosaic.Lib.ValueIdx
import proofs.«101261_j58583353918037_1_alg».proof.Proof.LibMatProd
import proofs.«101261_j58583353918037_1_alg».proof.Proof.LibBiasRelu
import proofs.«101261_j58583353918037_1_alg».proof.Proof.LibSigmoidLayer

open scoped BigOperators

noncomputable section

namespace Cert.Lib.LayerReads

open Idealize.ShloMosaic Idealize.ShloMosaic.ValueIdx Cert.Lib.MatProd Cert.Lib.BiasRelu Cert.Lib.SigmoidLayer

/-- The offsets of a rank-2 window that starts at the origin. -/
theorem origin2 : (![0, 0] : Fin 2 → Nat) = fun _ => 0 := funext fun a => by fin_cases a <;> rfl

variable {m k n m' n' : Nat}

/-- An entry of a product read at any index: it depends on one row of the left operand and one column of the right. -/
theorem matProd_at (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (i : (⟨2, ![m, n]⟩ : Shape).Idx)
    (hA : ∀ c : Fin k, A' (ix2 y c) = A (ix2 (i 0) c)) (hB : ∀ c : Fin k, B' (ix2 c b) = B (ix2 c (i 1))) :
    matProd A' B' (ix2 y b) = matProd A B i := by
  rw [matProd_apply]
  unfold matProd
  exact Finset.sum_congr rfl fun c _ => by rw [hA c, hB c]

/-- An entry of a bias-and-clamp read at any index in column q. -/
theorem biasRelu_at (X : (⟨2, ![m, n]⟩ : Shape).Idx → EReal) (X' : (⟨2, ![m', n]⟩ : Shape).Idx → EReal)
    (b b' : (⟨2, ![1, n]⟩ : Shape).Idx → EReal) (y : Fin m') (q : Fin n) (i : (⟨2, ![m, n]⟩ : Shape).Idx)
    (hq : (i 1).val = q.val) (hX : X' (ix2 y q) = X i) (hb : b' (ix2 0 q) = b (ix2 0 q)) :
    biasRelu X' b' (ix2 y q) = biasRelu X b i := by
  have e : (⟨(i 1).val, idx2_lt1 i⟩ : Fin n) = q := Fin.ext hq
  show max (X' (ix2 y q) + b' (ix2 0 q)) _ = max (X i + b (ix2 (0 : Fin 1) (⟨(i 1).val, idx2_lt1 i⟩ : Fin n))) _
  rw [e, hX, hb]

/-- An entry of a logistic layer read at any index in column q. -/
theorem sigLayer_at (X : (⟨2, ![m, k]⟩ : Shape).Idx → EReal) (X' : (⟨2, ![m', k]⟩ : Shape).Idx → EReal)
    (W W' : (⟨2, ![k, n]⟩ : Shape).Idx → EReal) (b b' : (⟨2, ![1, n]⟩ : Shape).Idx → EReal)
    (y : Fin m') (q : Fin n) (i : (⟨2, ![m, n]⟩ : Shape).Idx)
    (hq : (i 1).val = q.val) (hM : matProd X' W' (ix2 y q) = matProd X W i) (hb : b' (ix2 0 q) = b (ix2 0 q)) :
    sigLayer X' W' b' (ix2 y q) = sigLayer X W b i := by
  have e : (⟨(i 1).val, idx2_lt1 i⟩ : Fin n) = q := Fin.ext hq
  show Ideal.logistic (matProd X' W' (ix2 y q) + b' (ix2 0 q))
    = Ideal.logistic (matProd X W i + b (ix2 (0 : Fin 1) (⟨(i 1).val, idx2_lt1 i⟩ : Fin n)))
  rw [e, hM, hb]

end Cert.Lib.LayerReads

end
-- ==== Proof.Launch0.lean ====
/-
  Launch 0: the first dense layer, max (x · W₁ + b₁, 0), over the 100000 × 64 array.

  The launch runs over ten grid points; point t stages rows 10000·t … 10000·t + 9999 of x, the whole of W₁ and the
  whole of b₁, the body multiplies the block by W₁ into zeros (the change of format on the way in is the identity on
  the extended reals), adds b₁ to every row and takes the maximum with zero, and the block is written back to the same
  rows of the result. An entry of a matrix product depends on one row of the left operand and one column of the right,
  so every written block is the block of the layer of the whole arrays; the ten blocks tile the array; hence the array
  ends holding the layer of the arrays as the launch found them.
-/
import proofs.«101261_j58583353918037_1_alg».proof.Proof.Gen.KernelIdeal.Frame
import proofs.«101261_j58583353918037_1_alg».proof.Proof.LibGraphLayers
import proofs.«101261_j58583353918037_1_alg».proof.Proof.LibLayerReads

set_option maxRecDepth 16384

noncomputable section

namespace Cert.KernelIdeal.Dense0

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.Lib.SplitLayers Cert.Lib.MatProd Cert.Lib.BiasRelu Cert.Lib.RowVector Cert.Lib.LayerReads

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- The body's arithmetic is the layer of its three loaded blocks. -/
theorem pay_eq (x0 : Vec Ideal S10000x128 .f32) (x1 : Vec Ideal S128x64 .f32) (x2 : Vec Ideal S64 .f32) :
    k0_pay1 x0 x1 x2 = layer (x0 : S10000x128.Idx → EReal) (x1 : S128x64.Idx → EReal) (asRow (x2 : S64.Idx → EReal)) := by
  have e := Cert.Lib.GraphLayers.layer_body dot_S10000x128_S128x64_S10000x64_1_0_0_1_n_n rfl rfl rfl rfl rfl rfl
    (truncf .bf16 x0 bitsLt_bf16_f32) x1 (shapeCast S1x64 x2 shapeCasts_S64_S1x64) bitsLt_bf16_f32 broadcasts_S1x64_S10000x64
  refine e.trans ?_
  rw [shapeCast_eq_asRow]
  rfl

/-- Window 0 and the output move down the rows together; the weights and the bias stay at their one block. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) ≤ 9 ∧ win0_3.index t (1 : Fin 2) = 0 :=
  (by decide +kernel : ∀ t : Fin grid0.N, _)

/-- Every one of the ten row blocks is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- What point t writes back is its block of the layer of the three arrays. -/
theorem flushed_eq (c : Dev nD) (t : Fin cfg0.N) :
    (dat0 (F := Ideal) V c).flushed 3 t
      = ((cfg0.win 3).blk t).view.read (Elt Ideal)
          (layer (V c main_arg0 : S100000x128.Idx → EReal) (V c main_arg4 : S128x64.Idx → EReal)
            (asRow (V c main_arg5 : S64.Idx → EReal))) := by
  show (cfg0.win 3).cut (grid0.coords t) ((dat0 V c).after 3 t) = _
  rw [after0_3]
  unfold out0_3
  rw [View.canon_unit_zero origin2]
  simp only [View.ld_unit_zero (S := S10000x128) origin2, View.ld_unit_zero (S := S128x64) origin2,
    View.ld_unit_zero (S := S64) origin1]
  rw [pay_eq]
  obtain ⟨e0, e1, e2, e3, e4, e5, e6⟩ := idx_facts t
  funext j
  obtain ⟨y, q, rfl⟩ : ∃ (y : Fin 10000) (q : Fin 64), j = ix2 y q := ⟨j 0, j 1, eq_ix2 j⟩
  show biasRelu (matProd (iblk0 V c 0 t) (iblk0 V c 1 t)) (asRow (iblk0 V c 2 t)) (ix2 y q)
    = biasRelu (matProd (V c main_arg0 : S100000x128.Idx → EReal) (V c main_arg4 : S128x64.Idx → EReal))
        (asRow (V c main_arg5 : S64.Idx → EReal)) (((cfg0.win 3).blk t).view.emb (ix2 y q))
  refine biasRelu_at _ _ _ _ y q _ ?_ ?_ ?_
  · show win0_3.index t (1 : Fin 2) * 64 + 1 * q.val = q.val
    omega
  · refine matProd_at _ _ _ _ y q _ (fun c' => ?_) (fun c' => ?_)
    · show V c main_arg0 (((cfg0.win 0).blk t).view.emb (ix2 y c')) = _
      refine congrArg (V c main_arg0) ?_
      funext a; apply Fin.ext
      match a with
      | ⟨0, _⟩ => show win0_0.index t (0 : Fin 2) * 10000 + 1 * y.val = win0_3.index t (0 : Fin 2) * 10000 + 1 * y.val; omega
      | ⟨1, _⟩ => show win0_0.index t (1 : Fin 2) * 128 + 1 * c'.val = c'.val; omega
    · show V c main_arg4 (((cfg0.win 1).blk t).view.emb (ix2 c' q)) = _
      refine congrArg (V c main_arg4) ?_
      funext a; apply Fin.ext
      match a with
      | ⟨0, _⟩ => show win0_1.index t (0 : Fin 2) * 128 + 1 * c'.val = c'.val; omega
      | ⟨1, _⟩ => show win0_1.index t (1 : Fin 2) * 64 + 1 * q.val = win0_3.index t (1 : Fin 2) * 64 + 1 * q.val; omega
  · rw [asRow_apply, asRow_apply]
    show V c main_arg5 (((cfg0.win 2).blk t).view.emb (ix1 q)) = _
    refine congrArg (V c main_arg5) ?_
    funext a; apply Fin.ext
    match a with
    | ⟨0, _⟩ => show win0_2.index t (0 : Fin 1) * 64 + 1 * q.val = q.val; omega

/-- An index is in point t's block iff each coordinate is in the block's range on its axis. -/
theorem mem_blk (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v4).slice (win0_3.rect t)).set ↔ _
  rw [View.set_slice_whole, Rect.mem_set_unit]
  exact Iff.rfl

/-- The ten blocks tile the array. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- The result array after the launch is the layer of the three arrays as the launch found them. -/
theorem value (c : Dev nD) :
    (dat0 (F := Ideal) V c).arrAt 3 cfg0.N
      = layer (V c main_arg0 : S100000x128.Idx → EReal) (V c main_arg4 : S128x64.Idx → EReal)
          (asRow (V c main_arg5 : S64.Idx → EReal)) :=
  (dat0 (F := Ideal) V c).arrAt_eq_of_cover 3 _ (fun t _ => flushed_eq V c t) cover

end Cert.KernelIdeal.Dense0

end
-- ==== Proof.Stages.lean ====
/-
  The graph network as a composition of whole-array stages, spelled with the host's own operations.

  Node features h are 100000 × 64. One propagation step gathers, for each of the 3300000 edges (the given edges and
  one self-loop per node), the row of h at the edge's source (a negative index has the extent added), scales it by
  the edge's normalised weight, and adds it into the row of the edge's target: `aggregate`. The step then mixes the
  result with the initial features, 0.8 · agg + 0.2 · h₀, the two factors being the single-precision words
  3F4CCCCD and 3E4CCCCD: `combine`. After five steps the rows are averaged per graph (sum of the rows with a given
  graph id over the larger of the id's count and one): `pool`; and the classifier is an affine map followed by the
  row-wise log-softmax, z − max z − log Σ exp (z − max z): `head`.

  The reference's result is this composition of its first-layer features, its edge endpoints and its normalised
  weights (`reference_eq`): each stage is the reference's own operations in its own order, so each equation is a
  definitional unfolding.
-/
import proofs.«101261_j58583353918037_1_alg».proof.Proof.Gen.ReferenceIdeal.Read

noncomputable section

namespace Cert.Stages

open Cert.ReferenceIdeal Cert.ReferenceIdeal.Gen Cert.ReferenceIdeal.Read Idealize.ShloMosaic Idealize.ShloMosaic.TcCoe

variable {F : FTy → Type} [FloatOps F]

/-- An index vector with the extent 100000 added to its negative entries. -/
def wrapIdx (s : (⟨S3300000, .i32⟩ : BufTy).Contents (Elt F)) : (⟨S3300000, .i32⟩ : BufTy).Contents (Elt F) :=
  select (cmpi .slt s (broadcastInDim S3300000 ![] bcast_S_S3300000 (constantI S_ 32 0#32)))
    (addi s (broadcastInDim S3300000 ![] bcast_S_S3300000 (constantI S_ 32 100000#32))) s

/-- One propagation: row src(e) of h scaled by norm(e), summed into row dst(e), over all edges e. -/
def aggregate (h : (⟨S100000x64, .f32⟩ : BufTy).Contents (Elt F)) (src dst : (⟨S3300000, .i32⟩ : BufTy).Contents (Elt F)) (norm : (⟨S3300000, .f32⟩ : BufTy).Contents (Elt F)) :
    (⟨S100000x64, .f32⟩ : BufTy).Contents (Elt F) :=
  Host.scatterAdd scatter_S100000x64_S3300000x1_S3300000x64_1_0_0_1
    (broadcastInDim S100000x64 ![] bcast_S_S100000x64 (constant S_ .f32 0x00000000#32))
    (broadcastInDim S3300000x1 ![0] bcast_S3300000_S3300000x1_0 dst)
    (mulf (Host.gather gather_S100000x64_S3300000x1_S3300000x64_1_0_n_n_0_1_164 h
        (broadcastInDim S3300000x1 ![0] bcast_S3300000_S3300000x1_0 (wrapIdx src)))
      (broadcastInDim S3300000x64 ![0, 1] bcast_S3300000x1_S3300000x64_0_1
        (broadcastInDim S3300000x1 ![0] bcast_S3300000_S3300000x1_0 norm)))

/-- 0.8 · agg + 0.2 · h₀, entry by entry, in the host's spelling. -/
def combine (agg h0 : (⟨S100000x64, .f32⟩ : BufTy).Contents (Elt F)) : (⟨S100000x64, .f32⟩ : BufTy).Contents (Elt F) :=
  addf (mulf (broadcastInDim S100000x64 ![] bcast_S_S100000x64 (constant S_ .f32 0x3F4CCCCD#32)) agg)
    (mulf (broadcastInDim S100000x64 ![] bcast_S_S100000x64 (constant S_ .f32 0x3E4CCCCD#32)) h0)

/-- The mean of the rows of each graph: the rows summed by graph id, over max (count of the id) 1. -/
def pool (h : (⟨S100000x64, .f32⟩ : BufTy).Contents (Elt F)) (batch : (⟨S100000, .i32⟩ : BufTy).Contents (Elt F)) : (⟨S512x64, .f32⟩ : BufTy).Contents (Elt F) :=
  Host.divf
    (Host.scatterAdd scatter_S512x64_S100000x1_S100000x64_1_0_0_1
      (broadcastInDim S512x64 ![] bcast_S_S512x64 (constant S_ .f32 0x00000000#32))
      (broadcastInDim S100000x1 ![0] bcast_S100000_S100000x1_0 batch) h)
    (broadcastInDim S512x64 ![0, 1] bcast_S512x1_S512x64_0_1
      (broadcastInDim S512x1 ![0] bcast_S512_S512x1_0
        (maximumf
          (Host.scatterAdd scatter_S512_S100000x1_S100000_n_0_0_1
            (broadcastInDim S512 ![] bcast_S_S512 (constant S_ .f32 0x00000000#32))
            (broadcastInDim S100000x1 ![0] bcast_S100000_S100000x1_0 batch)
            (broadcastInDim S100000 ![] bcast_S_S100000 (constant S_ .f32 0x3F800000#32)))
          (broadcastInDim S512 ![] bcast_S_S512 (constant S_ .f32 0x3F800000#32)))))

/-- z − max over the row of z (the maximum started from −∞ and taken once more with −∞). -/
def shifted (z : (⟨S512x10, .f32⟩ : BufTy).Contents (Elt F)) : (⟨S512x10, .f32⟩ : BufTy).Contents (Elt F) :=
  subf z
    (broadcastInDim S512x10 ![0, 1] bcast_S512x1_S512x10_0_1
      (broadcastInDim S512x1 ![0] bcast_S512_S512x1_0
        (maximumf (broadcastInDim S512 ![] bcast_S_S512 (constant S_ .f32 0xFF800000#32))
          (Host.reduce FloatOps.maximumf z (constant S_ .f32 0xFF800000#32) reducesTo_S512x10_S512_d1 h_S_))))

/-- The row-wise log-softmax in the host's spelling: s − log Σ exp s for s the shifted rows. -/
def logSoftmax (z : (⟨S512x10, .f32⟩ : BufTy).Contents (Elt F)) : (⟨S512x10, .f32⟩ : BufTy).Contents (Elt F) :=
  subf (shifted z)
    (broadcastInDim S512x10 ![0, 1] bcast_S512x1_S512x10_0_1
      (Host.log (broadcastInDim S512x1 ![0] bcast_S512_S512x1_0
        (Host.reduceAdd (Host.exp (shifted z)) (constant S_ .f32 0x00000000#32) reducesTo_S512x10_S512_d1 h_S_))))

/-- The classifier's scores p · W₂ + b₂ in the host's spelling. -/
def logits (p : (⟨S512x64, .f32⟩ : BufTy).Contents (Elt F)) (w2 : (⟨S64x10, .f32⟩ : BufTy).Contents (Elt F)) (b2 : (⟨S10, .f32⟩ : BufTy).Contents (Elt F)) : (⟨S512x10, .f32⟩ : BufTy).Contents (Elt F) :=
  addf (Host.dotGeneral dot_S512x64_S64x10_S512x10_1_0_0_1_n_n none p w2)
    (broadcastInDim S512x10 ![0, 1] bcast_S1x10_S512x10_0_1 (broadcastInDim S1x10 ![1] bcast_S10_S1x10_1 b2))

/-- The classifier: log-softmax of the scores. -/
def head (p : (⟨S512x64, .f32⟩ : BufTy).Contents (Elt F)) (w2 : (⟨S64x10, .f32⟩ : BufTy).Contents (Elt F)) (b2 : (⟨S10, .f32⟩ : BufTy).Contents (Elt F)) : (⟨S512x10, .f32⟩ : BufTy).Contents (Elt F) :=
  logSoftmax (logits p w2 b2)

/-- One step of the propagation from h with initial features h0. -/
def step (h0 : (⟨S100000x64, .f32⟩ : BufTy).Contents (Elt F)) (src dst : (⟨S3300000, .i32⟩ : BufTy).Contents (Elt F)) (norm : (⟨S3300000, .f32⟩ : BufTy).Contents (Elt F))
    (h : (⟨S100000x64, .f32⟩ : BufTy).Contents (Elt F)) : (⟨S100000x64, .f32⟩ : BufTy).Contents (Elt F) :=
  combine (aggregate h src dst norm) h0

/-- The whole network from the first layer's features, the edges' endpoints and normalised weights. -/
def network (h0 : (⟨S100000x64, .f32⟩ : BufTy).Contents (Elt F)) (src dst : (⟨S3300000, .i32⟩ : BufTy).Contents (Elt F)) (norm : (⟨S3300000, .f32⟩ : BufTy).Contents (Elt F))
    (batch : (⟨S100000, .i32⟩ : BufTy).Contents (Elt F)) (w2 : (⟨S64x10, .f32⟩ : BufTy).Contents (Elt F)) (b2 : (⟨S10, .f32⟩ : BufTy).Contents (Elt F)) : (⟨S512x10, .f32⟩ : BufTy).Contents (Elt F) :=
  head (pool (step h0 src dst norm (step h0 src dst norm (step h0 src dst norm (step h0 src dst norm
    (step h0 src dst norm h0))))) batch) w2 b2

section Reference
variable (x0 : (⟨S100000x128, .f32⟩ : BufTy).Contents (Elt F)) (x1 : (⟨S2x3200000, .i32⟩ : BufTy).Contents (Elt F)) (x2 : (⟨S3200000, .f32⟩ : BufTy).Contents (Elt F)) (x3 : (⟨S100000, .i32⟩ : BufTy).Contents (Elt F)) (x4 : (⟨S128x64, .f32⟩ : BufTy).Contents (Elt F)) (x5 : (⟨S64, .f32⟩ : BufTy).Contents (Elt F)) (x6 : (⟨S64x10, .f32⟩ : BufTy).Contents (Elt F)) (x7 : (⟨S10, .f32⟩ : BufTy).Contents (Elt F))

theorem ref_step1 : val_main_v54 (F := F) x0 x1 x2 x4 x5
    = step (val_main_v4 (F := F) x0 x4 x5) (val_main_v8 (F := F) x1) (val_main_v11 (F := F) x1) (val_main_v36 (F := F) x1 x2)
        (val_main_v4 (F := F) x0 x4 x5) := rfl
theorem ref_step2 : val_main_v72 (F := F) x0 x1 x2 x4 x5
    = step (val_main_v4 (F := F) x0 x4 x5) (val_main_v8 (F := F) x1) (val_main_v11 (F := F) x1) (val_main_v36 (F := F) x1 x2)
        (val_main_v54 (F := F) x0 x1 x2 x4 x5) := rfl
theorem ref_step3 : val_main_v90 (F := F) x0 x1 x2 x4 x5
    = step (val_main_v4 (F := F) x0 x4 x5) (val_main_v8 (F := F) x1) (val_main_v11 (F := F) x1) (val_main_v36 (F := F) x1 x2)
        (val_main_v72 (F := F) x0 x1 x2 x4 x5) := rfl
theorem ref_step4 : val_main_v108 (F := F) x0 x1 x2 x4 x5
    = step (val_main_v4 (F := F) x0 x4 x5) (val_main_v8 (F := F) x1) (val_main_v11 (F := F) x1) (val_main_v36 (F := F) x1 x2)
        (val_main_v90 (F := F) x0 x1 x2 x4 x5) := rfl
theorem ref_step5 : val_main_v126 (F := F) x0 x1 x2 x4 x5
    = step (val_main_v4 (F := F) x0 x4 x5) (val_main_v8 (F := F) x1) (val_main_v11 (F := F) x1) (val_main_v36 (F := F) x1 x2)
        (val_main_v108 (F := F) x0 x1 x2 x4 x5) := rfl
theorem ref_pool : val_main_v138 (F := F) x0 x1 x2 x3 x4 x5 = pool (val_main_v126 (F := F) x0 x1 x2 x4 x5) x3 := rfl
theorem ref_head : val_main_v143 (F := F) x0 x1 x2 x3 x4 x5 x6 x7 = head (val_main_v138 (F := F) x0 x1 x2 x3 x4 x5) x6 x7 := rfl

/-- The reference's result is the network of its first-layer features, edge endpoints and normalised weights. -/
theorem reference_eq : val_main_v143 (F := F) x0 x1 x2 x3 x4 x5 x6 x7
    = network (val_main_v4 (F := F) x0 x4 x5) (val_main_v8 (F := F) x1) (val_main_v11 (F := F) x1)
        (val_main_v36 (F := F) x1 x2) x3 x6 x7 := by
  rw [ref_head, ref_pool, ref_step5, ref_step4, ref_step3, ref_step2, ref_step1]
  rfl

end Reference

end Cert.Stages

end
-- ==== Proof.LibTypedReads.lean ====
/-
  Reading a typed reference after a typed host operation.

  An outlined host function names its values by typed references: a buffer together with the fact that the buffer's
  type is the value's. Contents pass between the two types along that fact, and an operation at typed references is
  the operation at their buffers with the operands carried back and the result carried over. `read x V` is the value at
  x in the contents V, at the value's type. A typed unary (ternary) operation leaves at its result the function of
  what was read at its operands, and leaves every other typed reference reading what it read before. The carrying
  there and back cancels for any typed reference, whatever its buffer, so nothing about a particular program's table of
  buffers is computed. Nothing here mentions a program.
-/
import Idealize.ShloMosaic.Lib.StableHlo
import Idealize.ShloMosaic.Lib.StableHlo.Run

noncomputable section

namespace Cert.Lib.TypedReads

open Idealize.ShloMosaic Idealize.ShloMosaic.StableHlo

variable {τ : Topo} {sig : RefSig} {Val : EltTy → Type} {Tx Ta Tb Tc Ty Tz : BufTy}

/-- Carried to the buffer's type and back, a value is unchanged. -/
theorem ofBuf_toBuf (y : TRef sig Ty) (v : Ty.Contents Val) : y.ofBuf (y.toBuf v) = v := by
  obtain ⟨r, h, hd, hu⟩ := y
  subst h
  rfl

/-- The value at a typed reference in the contents V. -/
def read (x : TRef sig Tx) (V : Valuation τ sig Val) : Tx.Contents Val := x.ofBuf (V (Proc.devRef .tc x.ref))

/-- A typed unary operation leaves its function of what its operand read. -/
theorem unary_read (x : TRef sig Tx) (y : TRef sig Ty) (f : Tx.Contents Val → Ty.Contents Val)
    (V : Valuation τ sig Val) : read y ((TRef.unary (τ := τ) x y f).result V) = f (read x V) := by
  unfold read TRef.unary
  rw [StableHlo.unary_result]
  exact ofBuf_toBuf y _

/-- … and leaves any other typed reference as it read. -/
theorem unary_read_ne (x : TRef sig Tx) (y : TRef sig Ty) (f : Tx.Contents Val → Ty.Contents Val)
    (V : Valuation τ sig Val) (z : TRef sig Tz) (h : z.ref ≠ y.ref) :
    read z ((TRef.unary (τ := τ) x y f).result V) = read z V := by
  unfold read TRef.unary
  rw [StableHlo.unary_result_ne]
  exact h

/-- A typed ternary operation leaves its function of what its operands read. -/
theorem ternary_read (c : TRef sig Tc) (a : TRef sig Ta) (b : TRef sig Tb) (y : TRef sig Ty)
    (f : Tc.Contents Val → Ta.Contents Val → Tb.Contents Val → Ty.Contents Val) (V : Valuation τ sig Val) :
    read y ((TRef.ternary (τ := τ) c a b y f).result V) = f (read c V) (read a V) (read b V) := by
  unfold read TRef.ternary
  rw [StableHlo.ternary_result]
  exact ofBuf_toBuf y _

end Cert.Lib.TypedReads

end
-- ==== Proof.FoldA.lean ====
/-
  The buffers' contents up to the first mixing launch.

  The contents at a boundary are a fold from the launch memory. Up to the first mixing launch the fold passes the two
  slices of the edge list, the first dense layer (launch 0), and the host operations that append one self-loop per node
  to the edge list, sum the weights into each target node, take the reciprocal square roots where the sum is positive,
  normalise each edge's weight by its endpoints' factors, and aggregate the first layer's features once. Read at their
  buffers these are the reference's own stages of the same arguments: the same host operations in the same order, and
  for the dense layer the product into zeros against the host's plain product.
-/
import proofs.«101261_j58583353918037_1_alg».proof.Proof.Gen.KernelIdeal.Frame
import proofs.«101261_j58583353918037_1_alg».proof.Proof.Launch0
import proofs.«101261_j58583353918037_1_alg».proof.Proof.Stages
import proofs.«101261_j58583353918037_1_alg».proof.Proof.LibSplitLayers
import proofs.«101261_j58583353918037_1_alg».proof.Proof.LibTypedReads

set_option maxRecDepth 16384

noncomputable section

namespace Cert.KernelIdeal.Fold

open Cert.KernelIdeal Cert.KernelIdeal.Gen
open Idealize.ShloMosaic Idealize.ShloMosaic.TcCoe Idealize.SL.Sem
open Cert.ReferenceIdeal.Read Cert.Lib.SplitLayers Cert.Lib.RowVector Cert.Lib.TypedReads

variable (m : (ℓ : Loc nD τ sig) → Buf (Elt Ideal) ℓ) (ρ : Dev nD → PrngReg) (c : Dev nD)

/-! ## The arguments where the first launch reads them -/

theorem arg0_W1 : W1 m ρ c (Proc.devRef .tc main_arg0) = m ((c : Thread nD τ).loc main_arg0) := by
  show StableHlo.after hostOps0 (W0 m ρ c) (Proc.devRef .tc main_arg0) = _
  after_results
theorem arg4_W1 : W1 m ρ c (Proc.devRef .tc main_arg4) = m ((c : Thread nD τ).loc main_arg4) := by
  show StableHlo.after hostOps0 (W0 m ρ c) (Proc.devRef .tc main_arg4) = _
  after_results
theorem arg5_W1 : W1 m ρ c (Proc.devRef .tc main_arg5) = m ((c : Thread nD τ).loc main_arg5) := by
  show StableHlo.after hostOps0 (W0 m ρ c) (Proc.devRef .tc main_arg5) = _
  after_results

/-- The reference's first layer is the dense layer of its arguments. -/
theorem ref_layer (x0 : FVec Ideal ⟨2, ![100000, 128]⟩ .f32) (x4 : FVec Ideal ⟨2, ![128, 64]⟩ .f32)
    (x5 : FVec Ideal ⟨1, ![64]⟩ .f32) :
    val_main_v4 (F := Ideal) x0 x4 x5 = layer x0 x4 (asRow x5) := by
  unfold val_main_v4 val_main_v3 val_main_v2 val_main_v1 val_main_v0 val_main_call0_v0 val_main_call0_cst
  exact host_layer Cert.ReferenceIdeal.dot_S100000x128_S128x64_S100000x64_1_0_0_1_n_n rfl rfl rfl rfl rfl rfl x0 x4 x5
    Cert.ReferenceIdeal.Gen.bcast_S64_S1x64_1 Cert.ReferenceIdeal.Gen.bcast_S1x64_S100000x64_0_1
    Cert.ReferenceIdeal.Gen.bcast_S_S100000x64

/-- After launch 0 the features' buffer holds the reference's first layer of the arguments. -/
theorem h0_W2 : W2 m ρ c (Proc.devRef .tc main_v4)
    = val_main_v4 (F := Ideal) (m ((c : Thread nD τ).loc main_arg0)) (m ((c : Thread nD τ).loc main_arg4)) (m ((c : Thread nD τ).loc main_arg5)) := by
  refine (W2_arr m ρ c 3).trans ?_
  refine (Cert.KernelIdeal.Dense0.value (V1 m ρ) c).trans ?_
  rw [ref_layer]
  show layer (W1 m ρ c (Proc.devRef .tc main_arg0)) (W1 m ρ c (Proc.devRef .tc main_arg4))
      (asRow (W1 m ρ c (Proc.devRef .tc main_arg5))) = _
  rw [arg0_W1, arg4_W1, arg5_W1]

/-! ## The slices of the edge list and the weights, after launch 0 -/

theorem v1_W2 : W2 m ρ c (Proc.devRef .tc main_v1) = val_main_v7 (F := Ideal) (m ((c : Thread nD τ).loc main_arg1)) := by
  rw [W2_of_ne m ρ c main_v1 (by decide)]
  show StableHlo.after hostOps0 (W0 m ρ c) (Proc.devRef .tc main_v1) = _
  after_results
  rfl

theorem v3_W2 : W2 m ρ c (Proc.devRef .tc main_v3) = val_main_v10 (F := Ideal) (m ((c : Thread nD τ).loc main_arg1)) := by
  rw [W2_of_ne m ρ c main_v3 (by decide)]
  show StableHlo.after hostOps0 (W0 m ρ c) (Proc.devRef .tc main_v3) = _
  after_results
  rfl

theorem arg2_W2 : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results

/-! ## Between launch 0 and launch 1: boundary 3 (self-loops, degrees), boundary 4 (the factors), boundary 5 -/

theorem src_W3 : W3 m ρ c (Proc.devRef .tc main_v6) = val_main_v8 (F := Ideal) (m ((c : Thread nD τ).loc main_arg1)) := by
  show StableHlo.after hostOps1 (W2 m ρ c) (Proc.devRef .tc main_v6) = _
  after_results
  rw [v1_W2]
  rfl
theorem dst_W3 : W3 m ρ c (Proc.devRef .tc main_v7) = val_main_v11 (F := Ideal) (m ((c : Thread nD τ).loc main_arg1)) := by
  show StableHlo.after hostOps1 (W2 m ρ c) (Proc.devRef .tc main_v7) = _
  after_results
  rw [v3_W2]
  rfl
theorem w_W3 : W3 m ρ c (Proc.devRef .tc main_v9) = val_main_v13 (F := Ideal) (m ((c : Thread nD τ).loc main_arg2)) := by
  show StableHlo.after hostOps1 (W2 m ρ c) (Proc.devRef .tc main_v9) = _
  after_results
  rw [arg2_W2]
  rfl
theorem pos_W3 : W3 m ρ c (Proc.devRef .tc main_v14) = val_main_v18 (F := Ideal) (m ((c : Thread nD τ).loc main_arg1)) (m ((c : Thread nD τ).loc main_arg2)) := by
  show StableHlo.after hostOps1 (W2 m ρ c) (Proc.devRef .tc main_v14) = _
  after_results
  rw [v3_W2, arg2_W2]
  rfl
theorem rsq_W3 : W3 m ρ c (Proc.devRef .tc main_v15) = val_main_v19 (F := Ideal) (m ((c : Thread nD τ).loc main_arg1)) (m ((c : Thread nD τ).loc main_arg2)) := by
  show StableHlo.after hostOps1 (W2 m ρ c) (Proc.devRef .tc main_v15) = _
  after_results
  rw [v3_W2, arg2_W2]
  rfl
theorem zero_W3 : W3 m ρ c (Proc.devRef .tc main_cst_2) = val_main_cst_2 (F := Ideal) := by
  show StableHlo.after hostOps1 (W2 m ρ c) (Proc.devRef .tc main_cst_2) = _
  after_results
  rfl
theorem h0_W3 : W3 m ρ c (Proc.devRef .tc main_v4) = (val_main_v4 (F := Ideal) (m ((c : Thread nD τ).loc main_arg0)) (m ((c : Thread nD τ).loc main_arg4)) (m ((c : Thread nD τ).loc main_arg5))) := by
  show StableHlo.after hostOps1 (W2 m ρ c) (Proc.devRef .tc main_v4) = _
  after_results
  exact h0_W2 m ρ c

/-- The factors: the reciprocal square root of a node's summed weight where that is positive, zero elsewhere. The
    three operations of the outlined selection are read one after another at their typed references. -/
theorem dis_W4 : W4 m ρ c (Proc.devRef .tc main_v16) = val_main_v20 (F := Ideal) (m ((c : Thread nD τ).loc main_arg1)) (m ((c : Thread nD τ).loc main_arg2)) := by
  have h14 := pos_W3 m ρ c
  have h15 := rsq_W3 m ρ c
  have hz := zero_W3 m ρ c
  show StableHlo.after hostOps1_1 (W3 m ρ c) (Proc.devRef .tc main_v16) = _
  generalize W3 m ρ c = Wv at h14 h15 hz ⊢
  have r14 : read (StableHlo.TRef.of main_v14 : StableHlo.TRef sig ⟨S100000, .i1⟩) Wv
      = val_main_v18 (F := Ideal) (m ((c : Thread nD τ).loc main_arg1)) (m ((c : Thread nD τ).loc main_arg2)) := by
    show (StableHlo.TRef.of main_v14 : StableHlo.TRef sig ⟨S100000, .i1⟩).ofBuf (Wv (Proc.devRef .tc main_v14)) = _
    rw [h14]
    rfl
  have r15 : read (StableHlo.TRef.of main_v15 : StableHlo.TRef sig ⟨S100000, .f32⟩) Wv
      = val_main_v19 (F := Ideal) (m ((c : Thread nD τ).loc main_arg1)) (m ((c : Thread nD τ).loc main_arg2)) := by
    show (StableHlo.TRef.of main_v15 : StableHlo.TRef sig ⟨S100000, .f32⟩).ofBuf (Wv (Proc.devRef .tc main_v15)) = _
    rw [h15]
    rfl
  have r2 : read (StableHlo.TRef.of main_cst_2 : StableHlo.TRef sig ⟨S_, .f32⟩) Wv = val_main_cst_2 (F := Ideal) := by
    show (StableHlo.TRef.of main_cst_2 : StableHlo.TRef sig ⟨S_, .f32⟩).ofBuf (Wv (Proc.devRef .tc main_cst_2)) = _
    rw [hz]
    rfl
  show read (StableHlo.TRef.of main_v16 : StableHlo.TRef sig ⟨S100000, .f32⟩)
      ((StableHlo.TRef.ternary (.of main_v14 : StableHlo.TRef sig ⟨S100000, .i1⟩) (.of main_v15 : StableHlo.TRef sig ⟨S100000, .f32⟩)
          (.of main_call0_v1 : StableHlo.TRef sig ⟨S100000, .f32⟩) (.of main_v16 : StableHlo.TRef sig ⟨S100000, .f32⟩) select).result
        ((StableHlo.TRef.unary (.of main_call0_v0 : StableHlo.TRef sig ⟨S_, .f32⟩) (.of main_call0_v1 : StableHlo.TRef sig ⟨S100000, .f32⟩)
            (broadcastInDim S100000 ![] bcast_S_S100000)).result
          ((StableHlo.TRef.unary (.of main_cst_2 : StableHlo.TRef sig ⟨S_, .f32⟩) (.of main_call0_v0 : StableHlo.TRef sig ⟨S_, .f32⟩) id).result Wv))) = _
  rw [ternary_read, unary_read,
    unary_read_ne _ _ _ _ (StableHlo.TRef.of main_v14 : StableHlo.TRef sig ⟨S100000, .i1⟩) (by decide),
    unary_read_ne _ _ _ _ (StableHlo.TRef.of main_v14 : StableHlo.TRef sig ⟨S100000, .i1⟩) (by decide),
    unary_read_ne _ _ _ _ (StableHlo.TRef.of main_v15 : StableHlo.TRef sig ⟨S100000, .f32⟩) (by decide),
    unary_read_ne _ _ _ _ (StableHlo.TRef.of main_v15 : StableHlo.TRef sig ⟨S100000, .f32⟩) (by decide),
    unary_read, r14, r15, r2]
  rfl

theorem src_W4 : W4 m ρ c (Proc.devRef .tc main_v6) = val_main_v8 (F := Ideal) (m ((c : Thread nD τ).loc main_arg1)) := by
  show StableHlo.after hostOps1_1 (W3 m ρ c) (Proc.devRef .tc main_v6) = _
  after_results
  exact src_W3 m ρ c
theorem dst_W4 : W4 m ρ c (Proc.devRef .tc main_v7) = val_main_v11 (F := Ideal) (m ((c : Thread nD τ).loc main_arg1)) := by
  show StableHlo.after hostOps1_1 (W3 m ρ c) (Proc.devRef .tc main_v7) = _
  after_results
  exact dst_W3 m ρ c
theorem w_W4 : W4 m ρ c (Proc.devRef .tc main_v9) = val_main_v13 (F := Ideal) (m ((c : Thread nD τ).loc main_arg2)) := by
  show StableHlo.after hostOps1_1 (W3 m ρ c) (Proc.devRef .tc main_v9) = _
  after_results
  exact w_W3 m ρ c
theorem h0_W4 : W4 m ρ c (Proc.devRef .tc main_v4) = (val_main_v4 (F := Ideal) (m ((c : Thread nD τ).loc main_arg0)) (m ((c : Thread nD τ).loc main_arg4)) (m ((c : Thread nD τ).loc main_arg5))) := by
  show StableHlo.after hostOps1_1 (W3 m ρ c) (Proc.devRef .tc main_v4) = _
  after_results
  exact h0_W3 m ρ c

theorem src_W5 : W5 m ρ c (Proc.devRef .tc main_v6) = val_main_v8 (F := Ideal) (m ((c : Thread nD τ).loc main_arg1)) := by
  show StableHlo.after hostOps1_2 (W4 m ρ c) (Proc.devRef .tc main_v6) = _
  after_results
  exact src_W4 m ρ c
theorem dst_W5 : W5 m ρ c (Proc.devRef .tc main_v7) = val_main_v11 (F := Ideal) (m ((c : Thread nD τ).loc main_arg1)) := by
  show StableHlo.after hostOps1_2 (W4 m ρ c) (Proc.devRef .tc main_v7) = _
  after_results
  exact dst_W4 m ρ c
theorem h0_W5 : W5 m ρ c (Proc.devRef .tc main_v4) = (val_main_v4 (F := Ideal) (m ((c : Thread nD τ).loc main_arg0)) (m ((c : Thread nD τ).loc main_arg4)) (m ((c : Thread nD τ).loc main_arg5))) := by
  show StableHlo.after hostOps1_2 (W4 m ρ c) (Proc.devRef .tc main_v4) = _
  after_results
  exact h0_W4 m ρ c
theorem norm_W5 : W5 m ρ c (Proc.devRef .tc main_v32) = val_main_v36 (F := Ideal) (m ((c : Thread nD τ).loc main_arg1)) (m ((c : Thread nD τ).loc main_arg2)) := by
  show StableHlo.after hostOps1_2 (W4 m ρ c) (Proc.devRef .tc main_v32) = _
  have hd := dis_W4 m ρ c
  have hs := src_W4 m ρ c
  have ht := dst_W4 m ρ c
  have hw := w_W4 m ρ c
  generalize W4 m ρ c = Wv at hd hs ht hw ⊢
  after_results_simp
  rw [hd, hs, ht, hw]
  rfl

/-- The first aggregation: the reference's, of the first layer's features. -/
theorem agg_W5 : W5 m ρ c (Proc.devRef .tc main_v45) = val_main_v49 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  show StableHlo.after hostOps1_2 (W4 m ρ c) (Proc.devRef .tc main_v45) = _
  have hd := dis_W4 m ρ c
  have hs := src_W4 m ρ c
  have ht := dst_W4 m ρ c
  have hw := w_W4 m ρ c
  have hh := h0_W4 m ρ c
  generalize W4 m ρ c = Wv at hd hs ht hw hh ⊢
  after_results_simp
  rw [hd, hs, ht, hw, hh]
  rfl

end Cert.KernelIdeal.Fold

end
-- ==== Proof.Mix.lean ====
/-
  The mixing step of the propagation, entry by entry on the extended reals.

  `mix a b` is 0.8 · a + 0.2 · b with the two factors the single-precision words 3F4CCCCD and 3E4CCCCD, the same
  words in the kernel body and in the reference, so they are never evaluated. The reference spells it with each word
  broadcast from a scalar constant; a kernel body spells it with a splat of each word over its block; both are `mix`.
  An entry of `mix` depends on the two operands at that entry alone, so a block of `mix` of two arrays is `mix` of
  their blocks.
-/
import proofs.«101261_j58583353918037_1_alg».proof.Proof.Stages
import proofs.«101261_j58583353918037_1_alg».proof.Proof.LibRowVector
import proofs.«101261_j58583353918037_1_alg».proof.Proof.Gen.KernelIdeal.Skeleton
import Idealize.ShloMosaic.Lib.ValueIdx
import Idealize.ShloMosaic.Lib.Pipeline.Value

noncomputable section

namespace Cert.Mix

open Idealize.ShloMosaic Idealize.ShloMosaic.ValueIdx

/-- 0.8 · a + 0.2 · b at every index. -/
def mix {α : Type} (a b : α → EReal) : α → EReal :=
  fun i => Ideal.ofBits .f32 0x3F4CCCCD#32 * a i + Ideal.ofBits .f32 0x3E4CCCCD#32 * b i

/-- An entry depends on the operands at that entry only. -/
theorem mix_at {α β : Type} (a b : α → EReal) (a' b' : β → EReal) (i : α) (j : β)
    (ha : a' j = a i) (hb : b' j = b i) : mix a' b' j = mix a b i := by
  unfold mix; rw [ha, hb]

/-- The reference's spelling. -/
theorem combine_eq (agg h0 : FVec Ideal Cert.ReferenceIdeal.S100000x64 .f32) :
    Cert.Stages.combine (F := Ideal) agg h0 = mix agg h0 := by
  funext i
  unfold Cert.Stages.combine mix
  rw [addf_apply, mulf_apply, mulf_apply, Cert.Lib.RowVector.bcastInDim_scalar_apply,
    Cert.Lib.RowVector.bcastInDim_scalar_apply, constant_apply, constant_apply]

/-- The body of launch 1. -/
theorem pay1 (x0 x1 : Vec Ideal Cert.KernelIdeal.S10000x64 .f32) : Cert.KernelIdeal.Gen.k1_pay1 x0 x1 = mix x0 x1 := by
  funext i
  unfold Cert.KernelIdeal.Gen.k1_pay1 mix
  rw [addf_apply, mulf_apply, mulf_apply, broadcast_apply, broadcast_apply, shapeCast_self, shapeCast_self]
  rfl

/-- The body of launch 2. -/
theorem pay2 (x0 x1 : Vec Ideal Cert.KernelIdeal.S10000x64 .f32) : Cert.KernelIdeal.Gen.k2_pay1 x0 x1 = mix x0 x1 := by
  funext i
  unfold Cert.KernelIdeal.Gen.k2_pay1 mix
  rw [addf_apply, mulf_apply, mulf_apply, broadcast_apply, broadcast_apply, shapeCast_self, shapeCast_self]
  rfl

/-- The body of launch 3. -/
theorem pay3 (x0 x1 : Vec Ideal Cert.KernelIdeal.S10000x64 .f32) : Cert.KernelIdeal.Gen.k3_pay1 x0 x1 = mix x0 x1 := by
  funext i
  unfold Cert.KernelIdeal.Gen.k3_pay1 mix
  rw [addf_apply, mulf_apply, mulf_apply, broadcast_apply, broadcast_apply, shapeCast_self, shapeCast_self]
  rfl

/-- The body of launch 4. -/
theorem pay4 (x0 x1 : Vec Ideal Cert.KernelIdeal.S10000x64 .f32) : Cert.KernelIdeal.Gen.k4_pay1 x0 x1 = mix x0 x1 := by
  funext i
  unfold Cert.KernelIdeal.Gen.k4_pay1 mix
  rw [addf_apply, mulf_apply, mulf_apply, broadcast_apply, broadcast_apply, shapeCast_self, shapeCast_self]
  rfl

/-- The body of launch 5. -/
theorem pay5 (x0 x1 : Vec Ideal Cert.KernelIdeal.S10000x64 .f32) : Cert.KernelIdeal.Gen.k5_pay1 x0 x1 = mix x0 x1 := by
  funext i
  unfold Cert.KernelIdeal.Gen.k5_pay1 mix
  rw [addf_apply, mulf_apply, mulf_apply, broadcast_apply, broadcast_apply, shapeCast_self, shapeCast_self]
  rfl

end Cert.Mix

end
-- ==== Proof.Launch1.lean ====
/-
  Launch 1: the mixing step over the whole 100000 × 64 array.

  The launch runs over ten grid points; point t stages rows 10000·t … 10000·t + 9999 of the aggregated features and
  of the initial features, the body stores 0.8 · a + 0.2 · b of the two blocks, and the block is written back to the
  same rows of the result. An entry of the mix depends on the operands at that entry alone, so every written block is
  the block of the mix of the whole arrays; the ten blocks tile the array; hence the array ends holding the mix of
  the two arrays as the launch found them.
-/
import proofs.«101261_j58583353918037_1_alg».proof.Proof.Gen.KernelIdeal.Frame
import proofs.«101261_j58583353918037_1_alg».proof.Proof.Mix

set_option maxRecDepth 16384

noncomputable section

namespace Cert.KernelIdeal.Mix1

open Cert.KernelIdeal Cert.KernelIdeal.Gen Cert.Mix
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The three windows move together: block (t, 0) of each array at point t. -/
theorem idx_facts : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) ≤ 9 ∧ win1_2.index t (1 : Fin 2) = 0 :=
  (by decide +kernel : ∀ t : Fin grid1.N, _)

/-- Every one of the ten row blocks is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- What point t writes back is its block of the mix of the two arrays. -/
theorem flushed_eq (c : Dev nD) (t : Fin cfg1.N) :
    (dat1 (F := Ideal) V c).flushed 2 t
      = ((cfg1.win 2).blk t).view.read (Elt Ideal)
          (mix (V c main_v45 : S100000x64.Idx → EReal) (V c main_v4 : S100000x64.Idx → EReal)) := by
  show (cfg1.win 2).cut (grid1.coords t) ((dat1 V c).after 2 t) = _
  rw [after1_2]
  unfold out1_2
  rw [View.canon_unit_zero origin]
  simp only [View.ld_unit_zero (S := S10000x64) origin]
  rw [Cert.Mix.pay1]
  obtain ⟨e0, e1, e2, e3, e4, e5⟩ := idx_facts t
  funext j
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 64 + 1 * (j 1).val = win1_2.index t (1 : Fin 2) * 64 + 1 * (j 1).val; omega
  show mix (iblk1 V c 0 t) (iblk1 V c 1 t) j
    = mix (V c main_v45 : S100000x64.Idx → EReal) (V c main_v4 : S100000x64.Idx → EReal) (((cfg1.win 2).blk t).view.emb j)
  refine mix_at _ _ _ _ _ _ ?_ ?_
  · show V c main_v45 (((cfg1.win 0).blk t).view.emb j) = _
    rw [h0]
  · show V c main_v4 (((cfg1.win 1).blk t).view.emb j) = _
    rw [h1]

/-- An index is in point t's block iff each coordinate is in the block's range on its axis. -/
theorem mem_blk (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v46).slice (win1_2.rect t)).set ↔ _
  rw [View.set_slice_whole, Rect.mem_set_unit]
  exact Iff.rfl

/-- The ten blocks tile the array: row r is in the block of the point whose block index is r / 10000. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The result array after the launch is the mix of the two arrays as the launch found them. -/
theorem value (c : Dev nD) :
    (dat1 (F := Ideal) V c).arrAt 2 cfg1.N
      = mix (V c main_v45 : S100000x64.Idx → EReal) (V c main_v4 : S100000x64.Idx → EReal) :=
  (dat1 (F := Ideal) V c).arrAt_eq_of_cover 2 _ (fun t _ => flushed_eq V c t) cover

end Cert.KernelIdeal.Mix1

end
-- ==== Proof.Launch2.lean ====
/-
  Launch 2: the mixing step over the whole 100000 × 64 array.

  The launch runs over ten grid points; point t stages rows 10000·t … 10000·t + 9999 of the aggregated features and
  of the initial features, the body stores 0.8 · a + 0.2 · b of the two blocks, and the block is written back to the
  same rows of the result. An entry of the mix depends on the operands at that entry alone, so every written block is
  the block of the mix of the whole arrays; the ten blocks tile the array; hence the array ends holding the mix of
  the two arrays as the launch found them.
-/
import proofs.«101261_j58583353918037_1_alg».proof.Proof.Gen.KernelIdeal.Frame
import proofs.«101261_j58583353918037_1_alg».proof.Proof.Mix

set_option maxRecDepth 16384

noncomputable section

namespace Cert.KernelIdeal.Mix2

open Cert.KernelIdeal Cert.KernelIdeal.Gen Cert.Mix
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The three windows move together: block (t, 0) of each array at point t. -/
theorem idx_facts : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = win2_2.index t (1 : Fin 2)
    ∧ win2_2.index t (0 : Fin 2) ≤ 9 ∧ win2_2.index t (1 : Fin 2) = 0 :=
  (by decide +kernel : ∀ t : Fin grid2.N, _)

/-- Every one of the ten row blocks is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- What point t writes back is its block of the mix of the two arrays. -/
theorem flushed_eq (c : Dev nD) (t : Fin cfg2.N) :
    (dat2 (F := Ideal) V c).flushed 2 t
      = ((cfg2.win 2).blk t).view.read (Elt Ideal)
          (mix (V c main_v59 : S100000x64.Idx → EReal) (V c main_v4 : S100000x64.Idx → EReal)) := by
  show (cfg2.win 2).cut (grid2.coords t) ((dat2 V c).after 2 t) = _
  rw [after2_2]
  unfold out2_2
  rw [View.canon_unit_zero origin]
  simp only [View.ld_unit_zero (S := S10000x64) origin]
  rw [Cert.Mix.pay2]
  obtain ⟨e0, e1, e2, e3, e4, e5⟩ := idx_facts t
  funext j
  have h0 : ((cfg2.win 0).blk t).view.emb j = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb j = ((cfg2.win 2).blk t).view.emb j := by
    funext a; apply Fin.ext
    match a with
    | ⟨0, _⟩ => show win2_1.index t (0 : Fin 2) * 10000 + 1 * (j 0).val = win2_2.index t (0 : Fin 2) * 10000 + 1 * (j 0).val; omega
    | ⟨1, _⟩ => show win2_1.index t (1 : Fin 2) * 64 + 1 * (j 1).val = win2_2.index t (1 : Fin 2) * 64 + 1 * (j 1).val; omega
  show mix (iblk2 V c 0 t) (iblk2 V c 1 t) j
    = mix (V c main_v59 : S100000x64.Idx → EReal) (V c main_v4 : S100000x64.Idx → EReal) (((cfg2.win 2).blk t).view.emb j)
  refine mix_at _ _ _ _ _ _ ?_ ?_
  · show V c main_v59 (((cfg2.win 0).blk t).view.emb j) = _
    rw [h0]
  · show V c main_v4 (((cfg2.win 1).blk t).view.emb j) = _
    rw [h1]

/-- An index is in point t's block iff each coordinate is in the block's range on its axis. -/
theorem mem_blk (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v60).slice (win2_2.rect t)).set ↔ _
  rw [View.set_slice_whole, Rect.mem_set_unit]
  exact Iff.rfl

/-- The ten blocks tile the array: row r is in the block of the point whose block index is r / 10000. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The result array after the launch is the mix of the two arrays as the launch found them. -/
theorem value (c : Dev nD) :
    (dat2 (F := Ideal) V c).arrAt 2 cfg2.N
      = mix (V c main_v59 : S100000x64.Idx → EReal) (V c main_v4 : S100000x64.Idx → EReal) :=
  (dat2 (F := Ideal) V c).arrAt_eq_of_cover 2 _ (fun t _ => flushed_eq V c t) cover

end Cert.KernelIdeal.Mix2

end
-- ==== Proof.Launch3.lean ====
/-
  Launch 3: the mixing step over the whole 100000 × 64 array.

  The launch runs over ten grid points; point t stages rows 10000·t … 10000·t + 9999 of the aggregated features and
  of the initial features, the body stores 0.8 · a + 0.2 · b of the two blocks, and the block is written back to the
  same rows of the result. An entry of the mix depends on the operands at that entry alone, so every written block is
  the block of the mix of the whole arrays; the ten blocks tile the array; hence the array ends holding the mix of
  the two arrays as the launch found them.
-/
import proofs.«101261_j58583353918037_1_alg».proof.Proof.Gen.KernelIdeal.Frame
import proofs.«101261_j58583353918037_1_alg».proof.Proof.Mix

set_option maxRecDepth 16384

noncomputable section

namespace Cert.KernelIdeal.Mix3

open Cert.KernelIdeal Cert.KernelIdeal.Gen Cert.Mix
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The three windows move together: block (t, 0) of each array at point t. -/
theorem idx_facts : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2)
    ∧ win3_2.index t (0 : Fin 2) ≤ 9 ∧ win3_2.index t (1 : Fin 2) = 0 :=
  (by decide +kernel : ∀ t : Fin grid3.N, _)

/-- Every one of the ten row blocks is some point's. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- What point t writes back is its block of the mix of the two arrays. -/
theorem flushed_eq (c : Dev nD) (t : Fin cfg3.N) :
    (dat3 (F := Ideal) V c).flushed 2 t
      = ((cfg3.win 2).blk t).view.read (Elt Ideal)
          (mix (V c main_v73 : S100000x64.Idx → EReal) (V c main_v4 : S100000x64.Idx → EReal)) := by
  show (cfg3.win 2).cut (grid3.coords t) ((dat3 V c).after 2 t) = _
  rw [after3_2]
  unfold out3_2
  rw [View.canon_unit_zero origin]
  simp only [View.ld_unit_zero (S := S10000x64) origin]
  rw [Cert.Mix.pay3]
  obtain ⟨e0, e1, e2, e3, e4, e5⟩ := idx_facts t
  funext j
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb j = ((cfg3.win 2).blk t).view.emb j := by
    funext a; apply Fin.ext
    match a with
    | ⟨0, _⟩ => show win3_1.index t (0 : Fin 2) * 10000 + 1 * (j 0).val = win3_2.index t (0 : Fin 2) * 10000 + 1 * (j 0).val; omega
    | ⟨1, _⟩ => show win3_1.index t (1 : Fin 2) * 64 + 1 * (j 1).val = win3_2.index t (1 : Fin 2) * 64 + 1 * (j 1).val; omega
  show mix (iblk3 V c 0 t) (iblk3 V c 1 t) j
    = mix (V c main_v73 : S100000x64.Idx → EReal) (V c main_v4 : S100000x64.Idx → EReal) (((cfg3.win 2).blk t).view.emb j)
  refine mix_at _ _ _ _ _ _ ?_ ?_
  · show V c main_v73 (((cfg3.win 0).blk t).view.emb j) = _
    rw [h0]
  · show V c main_v4 (((cfg3.win 1).blk t).view.emb j) = _
    rw [h1]

/-- An index is in point t's block iff each coordinate is in the block's range on its axis. -/
theorem mem_blk (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v74).slice (win3_2.rect t)).set ↔ _
  rw [View.set_slice_whole, Rect.mem_set_unit]
  exact Iff.rfl

/-- The ten blocks tile the array: row r is in the block of the point whose block index is r / 10000. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := idx_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The result array after the launch is the mix of the two arrays as the launch found them. -/
theorem value (c : Dev nD) :
    (dat3 (F := Ideal) V c).arrAt 2 cfg3.N
      = mix (V c main_v73 : S100000x64.Idx → EReal) (V c main_v4 : S100000x64.Idx → EReal) :=
  (dat3 (F := Ideal) V c).arrAt_eq_of_cover 2 _ (fun t _ => flushed_eq V c t) cover

end Cert.KernelIdeal.Mix3

end
-- ==== Proof.Launch4.lean ====
/-
  Launch 4: the mixing step over the whole 100000 × 64 array.

  The launch runs over ten grid points; point t stages rows 10000·t … 10000·t + 9999 of the aggregated features and
  of the initial features, the body stores 0.8 · a + 0.2 · b of the two blocks, and the block is written back to the
  same rows of the result. An entry of the mix depends on the operands at that entry alone, so every written block is
  the block of the mix of the whole arrays; the ten blocks tile the array; hence the array ends holding the mix of
  the two arrays as the launch found them.
-/
import proofs.«101261_j58583353918037_1_alg».proof.Proof.Gen.KernelIdeal.Frame
import proofs.«101261_j58583353918037_1_alg».proof.Proof.Mix

set_option maxRecDepth 16384

noncomputable section

namespace Cert.KernelIdeal.Mix4

open Cert.KernelIdeal Cert.KernelIdeal.Gen Cert.Mix
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The three windows move together: block (t, 0) of each array at point t. -/
theorem idx_facts : ∀ t : Fin cfg4.N, win4_0.index t (0 : Fin 2) = win4_2.index t (0 : Fin 2)
    ∧ win4_0.index t (1 : Fin 2) = win4_2.index t (1 : Fin 2)
    ∧ win4_1.index t (0 : Fin 2) = win4_2.index t (0 : Fin 2)
    ∧ win4_1.index t (1 : Fin 2) = win4_2.index t (1 : Fin 2)
    ∧ win4_2.index t (0 : Fin 2) ≤ 9 ∧ win4_2.index t (1 : Fin 2) = 0 :=
  (by decide +kernel : ∀ t : Fin grid4.N, _)

/-- Every one of the ten row blocks is some point's. -/
theorem idx_onto : ∀ q0 : Fin 10, ∃ t : Fin cfg4.N, win4_2.index t = ![q0.val, 0] :=
  (by decide +kernel : ∀ q0 : Fin 10, ∃ t : Fin grid4.N, win4_2.index t = ![q0.val, 0])

/-- What point t writes back is its block of the mix of the two arrays. -/
theorem flushed_eq (c : Dev nD) (t : Fin cfg4.N) :
    (dat4 (F := Ideal) V c).flushed 2 t
      = ((cfg4.win 2).blk t).view.read (Elt Ideal)
          (mix (V c main_v87 : S100000x64.Idx → EReal) (V c main_v4 : S100000x64.Idx → EReal)) := by
  show (cfg4.win 2).cut (grid4.coords t) ((dat4 V c).after 2 t) = _
  rw [after4_2]
  unfold out4_2
  rw [View.canon_unit_zero origin]
  simp only [View.ld_unit_zero (S := S10000x64) origin]
  rw [Cert.Mix.pay4]
  obtain ⟨e0, e1, e2, e3, e4, e5⟩ := idx_facts t
  funext j
  have h0 : ((cfg4.win 0).blk t).view.emb j = ((cfg4.win 2).blk t).view.emb j := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 64 + 1 * (j 1).val = win4_2.index t (1 : Fin 2) * 64 + 1 * (j 1).val; omega
  have h1 : ((cfg4.win 1).blk t).view.emb j = ((cfg4.win 2).blk t).view.emb j := by
    funext a; apply Fin.ext
    match a with
    | ⟨0, _⟩ => show win4_1.index t (0 : Fin 2) * 10000 + 1 * (j 0).val = win4_2.index t (0 : Fin 2) * 10000 + 1 * (j 0).val; omega
    | ⟨1, _⟩ => show win4_1.index t (1 : Fin 2) * 64 + 1 * (j 1).val = win4_2.index t (1 : Fin 2) * 64 + 1 * (j 1).val; omega
  show mix (iblk4 V c 0 t) (iblk4 V c 1 t) j
    = mix (V c main_v87 : S100000x64.Idx → EReal) (V c main_v4 : S100000x64.Idx → EReal) (((cfg4.win 2).blk t).view.emb j)
  refine mix_at _ _ _ _ _ _ ?_ ?_
  · show V c main_v87 (((cfg4.win 0).blk t).view.emb j) = _
    rw [h0]
  · show V c main_v4 (((cfg4.win 1).blk t).view.emb j) = _
    rw [h1]

/-- An index is in point t's block iff each coordinate is in the block's range on its axis. -/
theorem mem_blk (t : Fin cfg4.N) (i : S100000x64.Idx) :
    i ∈ ((cfg4.win 2).blk t).view.set ↔ ∀ a : Fin 2, win4_2.index t a * S10000x64.size a ≤ (i a).val
      ∧ (i a).val < win4_2.index t a * S10000x64.size a + S10000x64.size a := by
  show i ∈ ((View.whole main_v88).slice (win4_2.rect t)).set ↔ _
  rw [View.set_slice_whole, Rect.mem_set_unit]
  exact Iff.rfl

/-- The ten blocks tile the array: row r is in the block of the point whose block index is r / 10000. -/
theorem cover (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ := idx_onto ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- The result array after the launch is the mix of the two arrays as the launch found them. -/
theorem value (c : Dev nD) :
    (dat4 (F := Ideal) V c).arrAt 2 cfg4.N
      = mix (V c main_v87 : S100000x64.Idx → EReal) (V c main_v4 : S100000x64.Idx → EReal) :=
  (dat4 (F := Ideal) V c).arrAt_eq_of_cover 2 _ (fun t _ => flushed_eq V c t) cover

end Cert.KernelIdeal.Mix4

end
-- ==== Proof.Launch5.lean ====
/-
  Launch 5: the mixing step over the whole 100000 × 64 array.

  The launch runs over ten grid points; point t stages rows 10000·t … 10000·t + 9999 of the aggregated features and
  of the initial features, the body stores 0.8 · a + 0.2 · b of the two blocks, and the block is written back to the
  same rows of the result. An entry of the mix depends on the operands at that entry alone, so every written block is
  the block of the mix of the whole arrays; the ten blocks tile the array; hence the array ends holding the mix of
  the two arrays as the launch found them.
-/
import proofs.«101261_j58583353918037_1_alg».proof.Proof.Gen.KernelIdeal.Frame
import proofs.«101261_j58583353918037_1_alg».proof.Proof.Mix

set_option maxRecDepth 16384

noncomputable section

namespace Cert.KernelIdeal.Mix5

open Cert.KernelIdeal Cert.KernelIdeal.Gen Cert.Mix
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The three windows move together: block (t, 0) of each array at point t. -/
theorem idx_facts : ∀ t : Fin cfg5.N, win5_0.index t (0 : Fin 2) = win5_2.index t (0 : Fin 2)
    ∧ win5_0.index t (1 : Fin 2) = win5_2.index t (1 : Fin 2)
    ∧ win5_1.index t (0 : Fin 2) = win5_2.index t (0 : Fin 2)
    ∧ win5_1.index t (1 : Fin 2) = win5_2.index t (1 : Fin 2)
    ∧ win5_2.index t (0 : Fin 2) ≤ 9 ∧ win5_2.index t (1 : Fin 2) = 0 :=
  (by decide +kernel : ∀ t : Fin grid5.N, _)

/-- Every one of the ten row blocks is some point's. -/
theorem idx_onto : ∀ q0 : Fin 10, ∃ t : Fin cfg5.N, win5_2.index t = ![q0.val, 0] :=
  (by decide +kernel : ∀ q0 : Fin 10, ∃ t : Fin grid5.N, win5_2.index t = ![q0.val, 0])

/-- What point t writes back is its block of the mix of the two arrays. -/
theorem flushed_eq (c : Dev nD) (t : Fin cfg5.N) :
    (dat5 (F := Ideal) V c).flushed 2 t
      = ((cfg5.win 2).blk t).view.read (Elt Ideal)
          (mix (V c main_v101 : S100000x64.Idx → EReal) (V c main_v4 : S100000x64.Idx → EReal)) := by
  show (cfg5.win 2).cut (grid5.coords t) ((dat5 V c).after 2 t) = _
  rw [after5_2]
  unfold out5_2
  rw [View.canon_unit_zero origin]
  simp only [View.ld_unit_zero (S := S10000x64) origin]
  rw [Cert.Mix.pay5]
  obtain ⟨e0, e1, e2, e3, e4, e5⟩ := idx_facts t
  funext j
  have h0 : ((cfg5.win 0).blk t).view.emb j = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb j = ((cfg5.win 2).blk t).view.emb j := by
    funext a; apply Fin.ext
    match a with
    | ⟨0, _⟩ => show win5_1.index t (0 : Fin 2) * 10000 + 1 * (j 0).val = win5_2.index t (0 : Fin 2) * 10000 + 1 * (j 0).val; omega
    | ⟨1, _⟩ => show win5_1.index t (1 : Fin 2) * 64 + 1 * (j 1).val = win5_2.index t (1 : Fin 2) * 64 + 1 * (j 1).val; omega
  show mix (iblk5 V c 0 t) (iblk5 V c 1 t) j
    = mix (V c main_v101 : S100000x64.Idx → EReal) (V c main_v4 : S100000x64.Idx → EReal) (((cfg5.win 2).blk t).view.emb j)
  refine mix_at _ _ _ _ _ _ ?_ ?_
  · show V c main_v101 (((cfg5.win 0).blk t).view.emb j) = _
    rw [h0]
  · show V c main_v4 (((cfg5.win 1).blk t).view.emb j) = _
    rw [h1]

/-- An index is in point t's block iff each coordinate is in the block's range on its axis. -/
theorem mem_blk (t : Fin cfg5.N) (i : S100000x64.Idx) :
    i ∈ ((cfg5.win 2).blk t).view.set ↔ ∀ a : Fin 2, win5_2.index t a * S10000x64.size a ≤ (i a).val
      ∧ (i a).val < win5_2.index t a * S10000x64.size a + S10000x64.size a := by
  show i ∈ ((View.whole main_v102).slice (win5_2.rect t)).set ↔ _
  rw [View.set_slice_whole, Rect.mem_set_unit]
  exact Iff.rfl

/-- The ten blocks tile the array: row r is in the block of the point whose block index is r / 10000. -/
theorem cover (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  obtain ⟨t, ht⟩ := idx_onto ⟨(i 0).val / 10000, by omega⟩
  have q0 : win5_2.index t (0 : Fin 2) = (i 0).val / 10000 := congrFun ht 0
  have q1 : win5_2.index t (1 : Fin 2) = 0 := congrFun ht 1
  refine ⟨t, flush5_2 t, ?_⟩
  rw [mem_blk]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- The result array after the launch is the mix of the two arrays as the launch found them. -/
theorem value (c : Dev nD) :
    (dat5 (F := Ideal) V c).arrAt 2 cfg5.N
      = mix (V c main_v101 : S100000x64.Idx → EReal) (V c main_v4 : S100000x64.Idx → EReal) :=
  (dat5 (F := Ideal) V c).arrAt_eq_of_cover 2 _ (fun t _ => flushed_eq V c t) cover

end Cert.KernelIdeal.Mix5

end
-- ==== Proof.LibLogSoftmaxRows.lean ====
/-
  The row-wise log-softmax on the extended reals, read at an entry.

  For a row z(p, ·) of an a×b array and a starting value w, `top w z p` is the maximum of w and the fold of max from
  w over the row's entries, and `entry w z p q` is (z(p,q) − top) − log Σ_k exp (z(p,k) − top). A kernel body spells
  this with a lane maximum started from the word of w, a further maximum with a splat of that word, the result
  re-shaped to a column and broadcast across the row, subtraction, exp, a lane sum, log of the re-shaped column,
  broadcast, subtraction (`body_apply`); the host spells it with a reduce-max from a scalar constant, a maximum with a
  broadcast of that constant, two broadcasts into the a×b array, subtraction, exp, a reduce-add from the zero word,
  log, broadcast, subtraction (`host_apply`). Both read `entry` at the word FF800000. No finiteness is asked: the
  same extended-real operations are applied in the same order on both sides. Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«101261_j58583353918037_1_alg».proof.Proof.LibRowReductions
import proofs.«101261_j58583353918037_1_alg».proof.Proof.LibRowVector

open scoped BigOperators

noncomputable section

namespace Cert.Lib.LogSoftmaxRows

open Idealize.ShloMosaic Idealize.ShloMosaic.ValueIdx Cert.Lib.RowReductions

variable {a b : Nat}

/-- The maximum of w and the row's maximum started from w. -/
def top (w : EReal) (z : (⟨2, ![a, b]⟩ : Shape).Idx → EReal) (p : Fin a) : EReal :=
  max w ((Finset.univ : Finset (Fin b)).fold max w (fun k => z (ix2 p k)))

/-- (z(p,q) − top) − log Σ_k exp (z(p,k) − top). -/
def entry (w : EReal) (z : (⟨2, ![a, b]⟩ : Shape).Idx → EReal) (p : Fin a) (q : Fin b) : EReal :=
  (z (ix2 p q) - top w z p) - Ideal.log (∑ k : Fin b, Ideal.exp (z (ix2 p k) - top w z p))

/-- The kernel body's spelling. -/
theorem body_apply (z : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩)
    (hφm : FKind.Formats .f32) (haccm : (0xFF800000#32 : BitVec 32) = FKind.maximumf.neutral .f32 hφm)
    (hφ0 : FKind.Formats .f32) (hacc0 : (0x00000000#32 : BitVec 32) = FKind.add.neutral .f32 hφ0) (p : Fin a) (q : Fin b) :
    subf
      (subf z (broadcastTo ⟨2, ![a, b]⟩ (shapeCast ⟨2, ![a, 1]⟩
        (maximumf (broadcast ⟨1, ![a]⟩ (Scalar.ofBits (F := Ideal) .f32 0xFF800000#32))
          (multiReduction .maximumf [1] ⟨1, ![a]⟩ z 0xFF800000#32 hr hφm haccm)) hc) hb))
      (broadcastTo ⟨2, ![a, b]⟩ (log (shapeCast ⟨2, ![a, 1]⟩ (multiReduction .add [1] ⟨1, ![a]⟩
        (exp (subf z (broadcastTo ⟨2, ![a, b]⟩ (shapeCast ⟨2, ![a, 1]⟩
          (maximumf (broadcast ⟨1, ![a]⟩ (Scalar.ofBits (F := Ideal) .f32 0xFF800000#32))
            (multiReduction .maximumf [1] ⟨1, ![a]⟩ z 0xFF800000#32 hr hφm haccm)) hc) hb)))
        0x00000000#32 hr hφ0 hacc0) hc)) hb) (ix2 p q)
      = entry (Ideal.ofBits .f32 0xFF800000#32) z p q := by
  have htop : ∀ q' : Fin b, broadcastTo ⟨2, ![a, b]⟩ (shapeCast ⟨2, ![a, 1]⟩
        (maximumf (broadcast ⟨1, ![a]⟩ (Scalar.ofBits (F := Ideal) .f32 0xFF800000#32))
          (multiReduction .maximumf [1] ⟨1, ![a]⟩ z 0xFF800000#32 hr hφm haccm)) hc) hb (ix2 p q')
      = top (Ideal.ofBits .f32 0xFF800000#32) z p := fun q' =>
    (broadcast_col_apply _ hb p q').trans ((shapeCast_col_apply _ hc p).trans (by
      rw [maximumf_apply, broadcast_apply, rowmax_apply z _ hr hφm haccm p]; rfl))
  have hexp : ∀ q' : Fin b, exp (subf z (broadcastTo ⟨2, ![a, b]⟩ (shapeCast ⟨2, ![a, 1]⟩
        (maximumf (broadcast ⟨1, ![a]⟩ (Scalar.ofBits (F := Ideal) .f32 0xFF800000#32))
          (multiReduction .maximumf [1] ⟨1, ![a]⟩ z 0xFF800000#32 hr hφm haccm)) hc) hb)) (ix2 p q')
      = Ideal.exp (z (ix2 p q') - top (Ideal.ofBits .f32 0xFF800000#32) z p) := fun q' =>
    congrArg (fun t => Ideal.exp (z (ix2 p q') - t)) (htop q')
  rw [subf_apply, subf_apply, htop q]
  refine congrArg (fun t => (z (ix2 p q) - top (Ideal.ofBits .f32 0xFF800000#32) z p) - t) ?_
  refine (broadcast_col_apply _ hb p q).trans ?_
  show Ideal.log (shapeCast ⟨2, ![a, 1]⟩ _ hc (ix2 p 0)) = _
  refine congrArg Ideal.log ((shapeCast_col_apply _ hc p).trans ((rowsum_apply _ _ hr hφ0 hacc0 p).trans ?_))
  exact Finset.sum_congr rfl fun u _ => hexp u

/-- The host's spelling. -/
theorem host_apply (z : FVec Ideal ⟨2, ![a, b]⟩ .f32)
    (hr' : (⟨2, ![a, b]⟩ : Shape).ReducesTo [1] ⟨1, ![a]⟩) (hu : 0 < (⟨0, ![]⟩ : Shape).numel)
    (h0 : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    subf
      (subf z (broadcastInDim ⟨2, ![a, b]⟩ ![0, 1] h2 (broadcastInDim ⟨2, ![a, 1]⟩ ![0] h1
        (maximumf (broadcastInDim ⟨1, ![a]⟩ ![] h0 (constant (F := Ideal) ⟨0, ![]⟩ .f32 0xFF800000#32))
          (Host.reduce FloatOps.maximumf z (constant (F := Ideal) ⟨0, ![]⟩ .f32 0xFF800000#32) hr' hu)))))
      (broadcastInDim ⟨2, ![a, b]⟩ ![0, 1] h2 (Host.log (broadcastInDim ⟨2, ![a, 1]⟩ ![0] h1
        (Host.reduceAdd (Host.exp (subf z (broadcastInDim ⟨2, ![a, b]⟩ ![0, 1] h2 (broadcastInDim ⟨2, ![a, 1]⟩ ![0] h1
          (maximumf (broadcastInDim ⟨1, ![a]⟩ ![] h0 (constant (F := Ideal) ⟨0, ![]⟩ .f32 0xFF800000#32))
            (Host.reduce FloatOps.maximumf z (constant (F := Ideal) ⟨0, ![]⟩ .f32 0xFF800000#32) hr' hu))))))
          (constant (F := Ideal) ⟨0, ![]⟩ .f32 0x00000000#32) hr' hu)))) (ix2 p q)
      = entry (Ideal.ofBits .f32 0xFF800000#32) z p q := by
  have hr : (⟨2, ![a, b]⟩ : Shape).Reduces [1] ⟨1, ![a]⟩ := ⟨hr'.1, Nat.one_pos, hr'.2⟩
  have htop : ∀ q' : Fin b, broadcastInDim ⟨2, ![a, b]⟩ ![0, 1] h2 (broadcastInDim ⟨2, ![a, 1]⟩ ![0] h1
        (maximumf (broadcastInDim ⟨1, ![a]⟩ ![] h0 (constant (F := Ideal) ⟨0, ![]⟩ .f32 0xFF800000#32))
          (Host.reduce FloatOps.maximumf z (constant (F := Ideal) ⟨0, ![]⟩ .f32 0xFF800000#32) hr' hu))) (ix2 p q')
      = top (Ideal.ofBits .f32 0xFF800000#32) z p := fun q' =>
    (bcastInDim_cols_apply _ h2 p q').trans ((bcastInDim_col_apply _ h1 p).trans (by
      rw [maximumf_apply, Cert.Lib.RowVector.bcastInDim_scalar_apply, constant_apply,
        host_rowmax_apply z _ hr' hu p, constant_apply]; rfl))
  have hexp : ∀ q' : Fin b, Host.exp (subf z (broadcastInDim ⟨2, ![a, b]⟩ ![0, 1] h2 (broadcastInDim ⟨2, ![a, 1]⟩ ![0] h1
        (maximumf (broadcastInDim ⟨1, ![a]⟩ ![] h0 (constant (F := Ideal) ⟨0, ![]⟩ .f32 0xFF800000#32))
          (Host.reduce FloatOps.maximumf z (constant (F := Ideal) ⟨0, ![]⟩ .f32 0xFF800000#32) hr' hu))))) (ix2 p q')
      = Ideal.exp (z (ix2 p q') - top (Ideal.ofBits .f32 0xFF800000#32) z p) := fun q' =>
    congrArg (fun t => Ideal.exp (z (ix2 p q') - t)) (htop q')
  rw [subf_apply, subf_apply, htop q]
  refine congrArg (fun t => (z (ix2 p q) - top (Ideal.ofBits .f32 0xFF800000#32) z p) - t) ?_
  refine (bcastInDim_cols_apply _ h2 p q).trans ?_
  show Ideal.log _ = Ideal.log _
  refine congrArg Ideal.log ((bcastInDim_col_apply _ h1 p).trans ?_)
  simp only [Host.reduceAdd, Ideal.hostReduceAdd_def]
  rw [Ideal.hostReduceAdd_single hr' hr, constant_apply, Ideal.ofBits_zero_f32, zero_add]
  exact Finset.sum_congr rfl fun k _ => (congrArg _ (lift_row hr p k)).trans (hexp ⟨k.val, k.isLt⟩)

end Cert.Lib.LogSoftmaxRows

end
-- ==== Proof.HeadSpec.lean ====
/-
  The classifier read at an entry, from the reference's spelling.

  The scores are z = p · W₂ + b₂ (the host's product is the plain sum over the contracted index; the bias vector is laid
  as a row and added to every row). The reference's classifier is the row-wise log-softmax of z in the host's spelling,
  so its entry (r, c) is (z(r,c) − top) − log Σ_k exp (z(r,k) − top) with top the maximum of the row started from −∞.
-/
import proofs.«101261_j58583353918037_1_alg».proof.Proof.Stages
import proofs.«101261_j58583353918037_1_alg».proof.Proof.LibGraphLayers
import proofs.«101261_j58583353918037_1_alg».proof.Proof.LibLogSoftmaxRows

noncomputable section

namespace Cert.HeadSpec

open Idealize.ShloMosaic Idealize.ShloMosaic.ValueIdx
open Cert.Lib.GraphLayers Cert.Lib.RowVector Cert.Lib.LogSoftmaxRows

/-- The reference's classifier at entry (r, c). -/
theorem head_at (P : FVec Ideal ⟨2, ![512, 64]⟩ .f32) (W : FVec Ideal ⟨2, ![64, 10]⟩ .f32) (b : FVec Ideal ⟨1, ![10]⟩ .f32)
    (r : Fin 512) (c : Fin 10) :
    Cert.Stages.head (F := Ideal) P W b (ix2 r c)
      = entry (Ideal.ofBits .f32 0xFF800000#32) (head P W (asRow b)) r c := by
  unfold Cert.Stages.head Cert.Stages.logSoftmax Cert.Stages.shifted Cert.Stages.logits
  rw [head_host Cert.ReferenceIdeal.dot_S512x64_S64x10_S512x10_1_0_0_1_n_n rfl rfl rfl rfl rfl rfl P W b
    Cert.ReferenceIdeal.Gen.bcast_S10_S1x10_1 Cert.ReferenceIdeal.Gen.bcast_S1x10_S512x10_0_1]
  exact host_apply _ Cert.ReferenceIdeal.Gen.reducesTo_S512x10_S512_d1 Cert.ReferenceIdeal.Gen.h_S_
    Cert.ReferenceIdeal.Gen.bcast_S_S512 Cert.ReferenceIdeal.Gen.bcast_S512_S512x1_0
    Cert.ReferenceIdeal.Gen.bcast_S512x1_S512x10_0_1 r c

end Cert.HeadSpec

end
-- ==== Proof.Launch6.lean ====
/-
  Launch 6: the classifier over the 512 × 10 array.

  The launch has one grid point, whose blocks are the whole arrays: the pooled features, the weights W₂ and the bias
  b₂. The body multiplies the features by W₂ into zeros (the changes of format are the identity on the extended reals),
  adds b₂ to every row, and takes the row-wise log-softmax: the lane maximum started from −∞, subtracted; exp; the lane
  sum; log; subtracted. Entry by entry this is (z − top) − log Σ exp (z − top) of the scores z = p · W₂ + b₂, which is
  what the reference's classifier is at that entry; the one block is the array, so the array ends holding the
  reference's classifier of the arrays as the launch found them.
-/
import proofs.«101261_j58583353918037_1_alg».proof.Proof.Gen.KernelIdeal.Frame
import proofs.«101261_j58583353918037_1_alg».proof.Proof.HeadSpec

set_option maxRecDepth 16384

noncomputable section

namespace Cert.KernelIdeal.Head6

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.Lib.GraphLayers Cert.Lib.RowVector Cert.Lib.LogSoftmaxRows

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- The body's scores are p · W₂ + b₂. -/
theorem scores_eq (x0 : Vec Ideal S512x64 .f32) (x1 : Vec Ideal S64x10 .f32) (x2 : Vec Ideal S10 .f32) :
    addf (matmul dot_S512x64_S64x10_S512x10_1_0_0_1_n_n none
        (truncf .bf16 (shapeCast S512x64 x0 shapeCasts_S512x64_S512x64) bitsLt_bf16_f32)
        (truncf .bf16 x1 bitsLt_bf16_f32) (constant (F := Ideal) S512x10 .f32 0x00000000#32))
      (broadcastTo S512x10 (shapeCast S1x10 x2 shapeCasts_S10_S1x10) broadcasts_S1x10_S512x10)
    = head (x0 : S512x64.Idx → EReal) (x1 : S64x10.Idx → EReal) (asRow (x2 : S10.Idx → EReal)) := by
  have e := head_body dot_S512x64_S64x10_S512x10_1_0_0_1_n_n rfl rfl rfl rfl rfl rfl
    (truncf .bf16 (shapeCast S512x64 x0 shapeCasts_S512x64_S512x64) bitsLt_bf16_f32) x1
    (shapeCast S1x10 x2 shapeCasts_S10_S1x10) bitsLt_bf16_f32 broadcasts_S1x10_S512x10
  refine e.trans ?_
  rw [shapeCast_eq_asRow, shapeCast_self]
  rfl

/-- The body's arithmetic at entry (r, c). -/
theorem pay_at (x0 : Vec Ideal S512x64 .f32) (x1 : Vec Ideal S64x10 .f32) (x2 : Vec Ideal S10 .f32)
    (r : Fin 512) (c : Fin 10) :
    k6_pay1 x0 x1 x2 (ix2 r c)
      = entry (Ideal.ofBits .f32 0xFF800000#32)
          (head (x0 : S512x64.Idx → EReal) (x1 : S64x10.Idx → EReal) (asRow (x2 : S10.Idx → EReal))) r c := by
  unfold k6_pay1
  dsimp only
  rw [scores_eq]
  exact body_apply _ reduces_S512x10_S512 shapeCasts_S512_S512x1 broadcasts_S512x1_S512x10 (.inl rfl) rfl (.inl rfl) rfl r c

/-- Every window's one block starts at the origin of its array. -/
theorem idx_facts : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = 0 ∧ win6_3.index t (1 : Fin 2) = 0 :=
  (by decide +kernel : ∀ t : Fin grid6.N, _)

/-- What the one point writes back is the reference's classifier of the three arrays. -/
theorem flushed_eq (c : Dev nD) (t : Fin cfg6.N) :
    (dat6 (F := Ideal) V c).flushed 3 t
      = ((cfg6.win 3).blk t).view.read (Elt Ideal)
          (Cert.Stages.head (F := Ideal) (V c main_v114) (V c main_arg6) (V c main_arg7)) := by
  show (cfg6.win 3).cut (grid6.coords t) ((dat6 V c).after 3 t) = _
  rw [after6_3]
  unfold out6_3
  rw [View.canon_unit_zero origin2]
  simp only [View.ld_unit_zero (S := S512x64) origin2, View.ld_unit_zero (S := S64x10) origin2,
    View.ld_unit_zero (S := S10) origin1]
  obtain ⟨e0, e1, e2, e3, e4, e5, e6⟩ := idx_facts t
  have b0 : iblk6 V c 0 t = (V c main_v114 : S512x64.Idx → EReal) := by
    funext y
    show V c main_v114 (((cfg6.win 0).blk t).view.emb y) = V c main_v114 y
    refine congrArg (V c main_v114) ?_
    funext a; apply Fin.ext
    match a with
    | ⟨0, _⟩ => show win6_0.index t (0 : Fin 2) * 512 + 1 * (y 0).val = (y 0).val; omega
    | ⟨1, _⟩ => show win6_0.index t (1 : Fin 2) * 64 + 1 * (y 1).val = (y 1).val; omega
  have b1 : iblk6 V c 1 t = (V c main_arg6 : S64x10.Idx → EReal) := by
    funext y
    show V c main_arg6 (((cfg6.win 1).blk t).view.emb y) = V c main_arg6 y
    refine congrArg (V c main_arg6) ?_
    funext a; apply Fin.ext
    match a with
    | ⟨0, _⟩ => show win6_1.index t (0 : Fin 2) * 64 + 1 * (y 0).val = (y 0).val; omega
    | ⟨1, _⟩ => show win6_1.index t (1 : Fin 2) * 10 + 1 * (y 1).val = (y 1).val; omega
  have b2 : iblk6 V c 2 t = (V c main_arg7 : S10.Idx → EReal) := by
    funext y
    show V c main_arg7 (((cfg6.win 2).blk t).view.emb y) = V c main_arg7 y
    refine congrArg (V c main_arg7) ?_
    funext a; apply Fin.ext
    match a with
    | ⟨0, _⟩ => show win6_2.index t (0 : Fin 1) * 10 + 1 * (y 0).val = (y 0).val; omega
  rw [b0, b1, b2]
  funext j
  obtain ⟨r, q, rfl⟩ : ∃ (r : Fin 512) (q : Fin 10), j = ix2 r q := ⟨j 0, j 1, eq_ix2 j⟩
  have hj : ((cfg6.win 3).blk t).view.emb (ix2 r q) = (ix2 r q : S512x10.Idx) := by
    funext a; apply Fin.ext
    match a with
    | ⟨0, _⟩ => show win6_3.index t (0 : Fin 2) * 512 + 1 * r.val = r.val; omega
    | ⟨1, _⟩ => show win6_3.index t (1 : Fin 2) * 10 + 1 * q.val = q.val; omega
  show k6_pay1 (V c main_v114 : S512x64.Idx → EReal) (V c main_arg6 : S64x10.Idx → EReal) (V c main_arg7 : S10.Idx → EReal) (ix2 r q)
    = Cert.Stages.head (F := Ideal) (V c main_v114) (V c main_arg6) (V c main_arg7) (((cfg6.win 3).blk t).view.emb (ix2 r q))
  rw [hj, pay_at]
  exact (Cert.HeadSpec.head_at _ _ _ r q).symm

/-- An index is in the point's block iff each coordinate is in the block's range on its axis. -/
theorem mem_blk (t : Fin cfg6.N) (i : S512x10.Idx) :
    i ∈ ((cfg6.win 3).blk t).view.set ↔ ∀ a : Fin 2, win6_3.index t a * S512x10.size a ≤ (i a).val
      ∧ (i a).val < win6_3.index t a * S512x10.size a + S512x10.size a := by
  show i ∈ ((View.whole main_v115).slice (win6_3.rect t)).set ↔ _
  rw [View.set_slice_whole, Rect.mem_set_unit]
  exact Iff.rfl

/-- The one block is the whole array. -/
theorem cover (i : S512x10.Idx) :
    ∃ t : Fin cfg6.N, (cfg6.win 3).flush t = true ∧ i ∈ ((cfg6.win 3).blk t).view.set := by
  have hi0 : (i 0).val < 512 := (i 0).isLt
  have hi1 : (i 1).val < 10 := (i 1).isLt
  obtain ⟨e0, e1, e2, e3, e4, e5, e6⟩ := idx_facts t6_0
  refine ⟨t6_0, flush6_3 t6_0, ?_⟩
  rw [mem_blk]
  intro a
  match a with
  | ⟨0, _⟩ => show win6_3.index t6_0 (0 : Fin 2) * 512 ≤ (i 0).val ∧ (i 0).val < win6_3.index t6_0 (0 : Fin 2) * 512 + 512; omega
  | ⟨1, _⟩ => show win6_3.index t6_0 (1 : Fin 2) * 10 ≤ (i 1).val ∧ (i 1).val < win6_3.index t6_0 (1 : Fin 2) * 10 + 10; omega

/-- The result array after the launch is the reference's classifier of the three arrays as the launch found them. -/
theorem value (c : Dev nD) :
    (dat6 (F := Ideal) V c).arrAt 3 cfg6.N
      = Cert.Stages.head (F := Ideal) (V c main_v114) (V c main_arg6) (V c main_arg7) :=
  (dat6 (F := Ideal) V c).arrAt_eq_of_cover 3 _ (fun t _ => flushed_eq V c t) cover

end Cert.KernelIdeal.Head6

end
-- ==== Proof.FoldB.lean ====
/-
  The buffers' contents from the first mixing launch to the result.

  Each of the five rounds is a mixing launch followed (but for the last) by the host operations of the next
  aggregation. A launch leaves its output array at the mix of its two input arrays and every other buffer as it was, so
  the features, the edge endpoints and the normalised weights computed before the first round are still in their buffers
  at every later boundary; a stretch of host operations writes only its own results. Read at their buffers, the
  aggregated and the mixed features of round k are the reference's stages of the same arguments, by induction along the
  rounds. After the fifth round the pooling stretch and the classifier launch give the reference's result.
-/
import proofs.«101261_j58583353918037_1_alg».proof.Proof.FoldA
import proofs.«101261_j58583353918037_1_alg».proof.Proof.Mix
import proofs.«101261_j58583353918037_1_alg».proof.Proof.Launch1
import proofs.«101261_j58583353918037_1_alg».proof.Proof.Launch2
import proofs.«101261_j58583353918037_1_alg».proof.Proof.Launch3
import proofs.«101261_j58583353918037_1_alg».proof.Proof.Launch4
import proofs.«101261_j58583353918037_1_alg».proof.Proof.Launch5
import proofs.«101261_j58583353918037_1_alg».proof.Proof.Launch6

set_option maxRecDepth 16384

noncomputable section

namespace Cert.KernelIdeal.Fold

open Cert.KernelIdeal Cert.KernelIdeal.Gen
open Idealize.ShloMosaic Idealize.ShloMosaic.TcCoe Idealize.SL.Sem
open Cert.ReferenceIdeal.Read Cert.Mix

variable (m : (ℓ : Loc nD τ sig) → Buf (Elt Ideal) ℓ) (ρ : Dev nD → PrngReg) (c : Dev nD)

/-- The reference's mixed features are the mix of its aggregated features and its first layer. -/
theorem ref_mix1 (x0 : FVec Ideal ⟨2, ![100000, 128]⟩ .f32) (x1 : (⟨⟨2, ![2, 3200000]⟩, .i32⟩ : BufTy).Contents (Elt Ideal))
    (x2 : FVec Ideal ⟨1, ![3200000]⟩ .f32) (x4 : FVec Ideal ⟨2, ![128, 64]⟩ .f32) (x5 : FVec Ideal ⟨1, ![64]⟩ .f32) :
    val_main_v54 (F := Ideal) x0 x1 x2 x4 x5
      = mix (val_main_v49 (F := Ideal) x0 x1 x2 x4 x5) (val_main_v4 (F := Ideal) x0 x4 x5) :=
  (rfl : val_main_v54 (F := Ideal) x0 x1 x2 x4 x5
      = Cert.Stages.combine (F := Ideal) (val_main_v49 (F := Ideal) x0 x1 x2 x4 x5) (val_main_v4 (F := Ideal) x0 x4 x5)).trans
    (combine_eq _ _)
theorem ref_mix2 (x0 : FVec Ideal ⟨2, ![100000, 128]⟩ .f32) (x1 : (⟨⟨2, ![2, 3200000]⟩, .i32⟩ : BufTy).Contents (Elt Ideal))
    (x2 : FVec Ideal ⟨1, ![3200000]⟩ .f32) (x4 : FVec Ideal ⟨2, ![128, 64]⟩ .f32) (x5 : FVec Ideal ⟨1, ![64]⟩ .f32) :
    val_main_v72 (F := Ideal) x0 x1 x2 x4 x5
      = mix (val_main_v67 (F := Ideal) x0 x1 x2 x4 x5) (val_main_v4 (F := Ideal) x0 x4 x5) :=
  (rfl : val_main_v72 (F := Ideal) x0 x1 x2 x4 x5
      = Cert.Stages.combine (F := Ideal) (val_main_v67 (F := Ideal) x0 x1 x2 x4 x5) (val_main_v4 (F := Ideal) x0 x4 x5)).trans
    (combine_eq _ _)
theorem ref_mix3 (x0 : FVec Ideal ⟨2, ![100000, 128]⟩ .f32) (x1 : (⟨⟨2, ![2, 3200000]⟩, .i32⟩ : BufTy).Contents (Elt Ideal))
    (x2 : FVec Ideal ⟨1, ![3200000]⟩ .f32) (x4 : FVec Ideal ⟨2, ![128, 64]⟩ .f32) (x5 : FVec Ideal ⟨1, ![64]⟩ .f32) :
    val_main_v90 (F := Ideal) x0 x1 x2 x4 x5
      = mix (val_main_v85 (F := Ideal) x0 x1 x2 x4 x5) (val_main_v4 (F := Ideal) x0 x4 x5) :=
  (rfl : val_main_v90 (F := Ideal) x0 x1 x2 x4 x5
      = Cert.Stages.combine (F := Ideal) (val_main_v85 (F := Ideal) x0 x1 x2 x4 x5) (val_main_v4 (F := Ideal) x0 x4 x5)).trans
    (combine_eq _ _)
theorem ref_mix4 (x0 : FVec Ideal ⟨2, ![100000, 128]⟩ .f32) (x1 : (⟨⟨2, ![2, 3200000]⟩, .i32⟩ : BufTy).Contents (Elt Ideal))
    (x2 : FVec Ideal ⟨1, ![3200000]⟩ .f32) (x4 : FVec Ideal ⟨2, ![128, 64]⟩ .f32) (x5 : FVec Ideal ⟨1, ![64]⟩ .f32) :
    val_main_v108 (F := Ideal) x0 x1 x2 x4 x5
      = mix (val_main_v103 (F := Ideal) x0 x1 x2 x4 x5) (val_main_v4 (F := Ideal) x0 x4 x5) :=
  (rfl : val_main_v108 (F := Ideal) x0 x1 x2 x4 x5
      = Cert.Stages.combine (F := Ideal) (val_main_v103 (F := Ideal) x0 x1 x2 x4 x5) (val_main_v4 (F := Ideal) x0 x4 x5)).trans
    (combine_eq _ _)
theorem ref_mix5 (x0 : FVec Ideal ⟨2, ![100000, 128]⟩ .f32) (x1 : (⟨⟨2, ![2, 3200000]⟩, .i32⟩ : BufTy).Contents (Elt Ideal))
    (x2 : FVec Ideal ⟨1, ![3200000]⟩ .f32) (x4 : FVec Ideal ⟨2, ![128, 64]⟩ .f32) (x5 : FVec Ideal ⟨1, ![64]⟩ .f32) :
    val_main_v126 (F := Ideal) x0 x1 x2 x4 x5
      = mix (val_main_v121 (F := Ideal) x0 x1 x2 x4 x5) (val_main_v4 (F := Ideal) x0 x4 x5) :=
  (rfl : val_main_v126 (F := Ideal) x0 x1 x2 x4 x5
      = Cert.Stages.combine (F := Ideal) (val_main_v121 (F := Ideal) x0 x1 x2 x4 x5) (val_main_v4 (F := Ideal) x0 x4 x5)).trans
    (combine_eq _ _)

/-! ## Round 1: launch 1 (boundary 5 to 6), then the next aggregation (to boundary 7) -/

theorem out_W6 : W6 m ρ c (Proc.devRef .tc main_v46) = val_main_v54 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (W6_arr m ρ c 2).trans ?_
  refine (Cert.KernelIdeal.Mix1.value (V5 m ρ) c).trans ?_
  rw [ref_mix1]
  show mix (W5 m ρ c (Proc.devRef .tc main_v45)) (W5 m ρ c (Proc.devRef .tc main_v4)) = _
  rw [agg_W5 m ρ c, h0_W5 m ρ c]

theorem h0_W6 : W6 m ρ c (Proc.devRef .tc main_v4) = (val_main_v4 (F := Ideal) (m ((c : Thread nD τ).loc main_arg0)) (m ((c : Thread nD τ).loc main_arg4)) (m ((c : Thread nD τ).loc main_arg5))) :=
  ((W6_arr m ρ c 1).trans (((dat1 (V5 m ρ) c).arrAt_in 1 rfl _).trans (A_eq1 (V5 m ρ) c 1))).trans (h0_W5 m ρ c)
theorem src_W6 : W6 m ρ c (Proc.devRef .tc main_v6) = (val_main_v8 (F := Ideal) (m ((c : Thread nD τ).loc main_arg1))) :=
  (W6_of_ne m ρ c main_v6 (by decide)).trans (src_W5 m ρ c)
theorem dst_W6 : W6 m ρ c (Proc.devRef .tc main_v7) = (val_main_v11 (F := Ideal) (m ((c : Thread nD τ).loc main_arg1))) :=
  (W6_of_ne m ρ c main_v7 (by decide)).trans (dst_W5 m ρ c)
theorem norm_W6 : W6 m ρ c (Proc.devRef .tc main_v32) = (val_main_v36 (F := Ideal) (m ((c : Thread nD τ).loc main_arg1)) (m ((c : Thread nD τ).loc main_arg2))) :=
  (W6_of_ne m ρ c main_v32 (by decide)).trans (norm_W5 m ρ c)

theorem h0_W7 : W7 m ρ c (Proc.devRef .tc main_v4) = (val_main_v4 (F := Ideal) (m ((c : Thread nD τ).loc main_arg0)) (m ((c : Thread nD τ).loc main_arg4)) (m ((c : Thread nD τ).loc main_arg5))) := by
  show StableHlo.after hostOps2 (W6 m ρ c) (Proc.devRef .tc main_v4) = _
  after_results
  exact h0_W6 m ρ c
theorem src_W7 : W7 m ρ c (Proc.devRef .tc main_v6) = (val_main_v8 (F := Ideal) (m ((c : Thread nD τ).loc main_arg1))) := by
  show StableHlo.after hostOps2 (W6 m ρ c) (Proc.devRef .tc main_v6) = _
  after_results
  exact src_W6 m ρ c
theorem dst_W7 : W7 m ρ c (Proc.devRef .tc main_v7) = (val_main_v11 (F := Ideal) (m ((c : Thread nD τ).loc main_arg1))) := by
  show StableHlo.after hostOps2 (W6 m ρ c) (Proc.devRef .tc main_v7) = _
  after_results
  exact dst_W6 m ρ c
theorem norm_W7 : W7 m ρ c (Proc.devRef .tc main_v32) = (val_main_v36 (F := Ideal) (m ((c : Thread nD τ).loc main_arg1)) (m ((c : Thread nD τ).loc main_arg2))) := by
  show StableHlo.after hostOps2 (W6 m ρ c) (Proc.devRef .tc main_v32) = _
  after_results
  exact norm_W6 m ρ c
theorem agg_W7 : W7 m ρ c (Proc.devRef .tc main_v59) = val_main_v67 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  show StableHlo.after hostOps2 (W6 m ρ c) (Proc.devRef .tc main_v59) = _
  after_results_simp
  rw [out_W6, src_W6, dst_W6, norm_W6]
  rfl

/-! ## Round 2: launch 2 (boundary 7 to 8), then the next aggregation (to boundary 9) -/

theorem out_W8 : W8 m ρ c (Proc.devRef .tc main_v60) = val_main_v72 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (W8_arr m ρ c 2).trans ?_
  refine (Cert.KernelIdeal.Mix2.value (V7 m ρ) c).trans ?_
  rw [ref_mix2]
  show mix (W7 m ρ c (Proc.devRef .tc main_v59)) (W7 m ρ c (Proc.devRef .tc main_v4)) = _
  rw [agg_W7 m ρ c, h0_W7 m ρ c]

theorem h0_W8 : W8 m ρ c (Proc.devRef .tc main_v4) = (val_main_v4 (F := Ideal) (m ((c : Thread nD τ).loc main_arg0)) (m ((c : Thread nD τ).loc main_arg4)) (m ((c : Thread nD τ).loc main_arg5))) :=
  ((W8_arr m ρ c 1).trans (((dat2 (V7 m ρ) c).arrAt_in 1 rfl _).trans (A_eq2 (V7 m ρ) c 1))).trans (h0_W7 m ρ c)
theorem src_W8 : W8 m ρ c (Proc.devRef .tc main_v6) = (val_main_v8 (F := Ideal) (m ((c : Thread nD τ).loc main_arg1))) :=
  (W8_of_ne m ρ c main_v6 (by decide)).trans (src_W7 m ρ c)
theorem dst_W8 : W8 m ρ c (Proc.devRef .tc main_v7) = (val_main_v11 (F := Ideal) (m ((c : Thread nD τ).loc main_arg1))) :=
  (W8_of_ne m ρ c main_v7 (by decide)).trans (dst_W7 m ρ c)
theorem norm_W8 : W8 m ρ c (Proc.devRef .tc main_v32) = (val_main_v36 (F := Ideal) (m ((c : Thread nD τ).loc main_arg1)) (m ((c : Thread nD τ).loc main_arg2))) :=
  (W8_of_ne m ρ c main_v32 (by decide)).trans (norm_W7 m ρ c)

theorem h0_W9 : W9 m ρ c (Proc.devRef .tc main_v4) = (val_main_v4 (F := Ideal) (m ((c : Thread nD τ).loc main_arg0)) (m ((c : Thread nD τ).loc main_arg4)) (m ((c : Thread nD τ).loc main_arg5))) := by
  show StableHlo.after hostOps3 (W8 m ρ c) (Proc.devRef .tc main_v4) = _
  after_results
  exact h0_W8 m ρ c
theorem src_W9 : W9 m ρ c (Proc.devRef .tc main_v6) = (val_main_v8 (F := Ideal) (m ((c : Thread nD τ).loc main_arg1))) := by
  show StableHlo.after hostOps3 (W8 m ρ c) (Proc.devRef .tc main_v6) = _
  after_results
  exact src_W8 m ρ c
theorem dst_W9 : W9 m ρ c (Proc.devRef .tc main_v7) = (val_main_v11 (F := Ideal) (m ((c : Thread nD τ).loc main_arg1))) := by
  show StableHlo.after hostOps3 (W8 m ρ c) (Proc.devRef .tc main_v7) = _
  after_results
  exact dst_W8 m ρ c
theorem norm_W9 : W9 m ρ c (Proc.devRef .tc main_v32) = (val_main_v36 (F := Ideal) (m ((c : Thread nD τ).loc main_arg1)) (m ((c : Thread nD τ).loc main_arg2))) := by
  show StableHlo.after hostOps3 (W8 m ρ c) (Proc.devRef .tc main_v32) = _
  after_results
  exact norm_W8 m ρ c
theorem agg_W9 : W9 m ρ c (Proc.devRef .tc main_v73) = val_main_v85 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  show StableHlo.after hostOps3 (W8 m ρ c) (Proc.devRef .tc main_v73) = _
  after_results_simp
  rw [out_W8, src_W8, dst_W8, norm_W8]
  rfl

/-! ## Round 3: launch 3 (boundary 9 to 10), then the next aggregation (to boundary 11) -/

theorem out_W10 : W10 m ρ c (Proc.devRef .tc main_v74) = val_main_v90 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (W10_arr m ρ c 2).trans ?_
  refine (Cert.KernelIdeal.Mix3.value (V9 m ρ) c).trans ?_
  rw [ref_mix3]
  show mix (W9 m ρ c (Proc.devRef .tc main_v73)) (W9 m ρ c (Proc.devRef .tc main_v4)) = _
  rw [agg_W9 m ρ c, h0_W9 m ρ c]

theorem h0_W10 : W10 m ρ c (Proc.devRef .tc main_v4) = (val_main_v4 (F := Ideal) (m ((c : Thread nD τ).loc main_arg0)) (m ((c : Thread nD τ).loc main_arg4)) (m ((c : Thread nD τ).loc main_arg5))) :=
  ((W10_arr m ρ c 1).trans (((dat3 (V9 m ρ) c).arrAt_in 1 rfl _).trans (A_eq3 (V9 m ρ) c 1))).trans (h0_W9 m ρ c)
theorem src_W10 : W10 m ρ c (Proc.devRef .tc main_v6) = (val_main_v8 (F := Ideal) (m ((c : Thread nD τ).loc main_arg1))) :=
  (W10_of_ne m ρ c main_v6 (by decide)).trans (src_W9 m ρ c)
theorem dst_W10 : W10 m ρ c (Proc.devRef .tc main_v7) = (val_main_v11 (F := Ideal) (m ((c : Thread nD τ).loc main_arg1))) :=
  (W10_of_ne m ρ c main_v7 (by decide)).trans (dst_W9 m ρ c)
theorem norm_W10 : W10 m ρ c (Proc.devRef .tc main_v32) = (val_main_v36 (F := Ideal) (m ((c : Thread nD τ).loc main_arg1)) (m ((c : Thread nD τ).loc main_arg2))) :=
  (W10_of_ne m ρ c main_v32 (by decide)).trans (norm_W9 m ρ c)

theorem h0_W11 : W11 m ρ c (Proc.devRef .tc main_v4) = (val_main_v4 (F := Ideal) (m ((c : Thread nD τ).loc main_arg0)) (m ((c : Thread nD τ).loc main_arg4)) (m ((c : Thread nD τ).loc main_arg5))) := by
  show StableHlo.after hostOps4 (W10 m ρ c) (Proc.devRef .tc main_v4) = _
  after_results
  exact h0_W10 m ρ c
theorem src_W11 : W11 m ρ c (Proc.devRef .tc main_v6) = (val_main_v8 (F := Ideal) (m ((c : Thread nD τ).loc main_arg1))) := by
  show StableHlo.after hostOps4 (W10 m ρ c) (Proc.devRef .tc main_v6) = _
  after_results
  exact src_W10 m ρ c
theorem dst_W11 : W11 m ρ c (Proc.devRef .tc main_v7) = (val_main_v11 (F := Ideal) (m ((c : Thread nD τ).loc main_arg1))) := by
  show StableHlo.after hostOps4 (W10 m ρ c) (Proc.devRef .tc main_v7) = _
  after_results
  exact dst_W10 m ρ c
theorem norm_W11 : W11 m ρ c (Proc.devRef .tc main_v32) = (val_main_v36 (F := Ideal) (m ((c : Thread nD τ).loc main_arg1)) (m ((c : Thread nD τ).loc main_arg2))) := by
  show StableHlo.after hostOps4 (W10 m ρ c) (Proc.devRef .tc main_v32) = _
  after_results
  exact norm_W10 m ρ c
theorem agg_W11 : W11 m ρ c (Proc.devRef .tc main_v87) = val_main_v103 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  show StableHlo.after hostOps4 (W10 m ρ c) (Proc.devRef .tc main_v87) = _
  after_results_simp
  rw [out_W10, src_W10, dst_W10, norm_W10]
  rfl

/-! ## Round 4: launch 4 (boundary 11 to 12), then the next aggregation (to boundary 13) -/

theorem out_W12 : W12 m ρ c (Proc.devRef .tc main_v88) = val_main_v108 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (W12_arr m ρ c 2).trans ?_
  refine (Cert.KernelIdeal.Mix4.value (V11 m ρ) c).trans ?_
  rw [ref_mix4]
  show mix (W11 m ρ c (Proc.devRef .tc main_v87)) (W11 m ρ c (Proc.devRef .tc main_v4)) = _
  rw [agg_W11 m ρ c, h0_W11 m ρ c]

theorem h0_W12 : W12 m ρ c (Proc.devRef .tc main_v4) = (val_main_v4 (F := Ideal) (m ((c : Thread nD τ).loc main_arg0)) (m ((c : Thread nD τ).loc main_arg4)) (m ((c : Thread nD τ).loc main_arg5))) :=
  ((W12_arr m ρ c 1).trans (((dat4 (V11 m ρ) c).arrAt_in 1 rfl _).trans (A_eq4 (V11 m ρ) c 1))).trans (h0_W11 m ρ c)
theorem src_W12 : W12 m ρ c (Proc.devRef .tc main_v6) = (val_main_v8 (F := Ideal) (m ((c : Thread nD τ).loc main_arg1))) :=
  (W12_of_ne m ρ c main_v6 (by decide)).trans (src_W11 m ρ c)
theorem dst_W12 : W12 m ρ c (Proc.devRef .tc main_v7) = (val_main_v11 (F := Ideal) (m ((c : Thread nD τ).loc main_arg1))) :=
  (W12_of_ne m ρ c main_v7 (by decide)).trans (dst_W11 m ρ c)
theorem norm_W12 : W12 m ρ c (Proc.devRef .tc main_v32) = (val_main_v36 (F := Ideal) (m ((c : Thread nD τ).loc main_arg1)) (m ((c : Thread nD τ).loc main_arg2))) :=
  (W12_of_ne m ρ c main_v32 (by decide)).trans (norm_W11 m ρ c)

theorem h0_W13 : W13 m ρ c (Proc.devRef .tc main_v4) = (val_main_v4 (F := Ideal) (m ((c : Thread nD τ).loc main_arg0)) (m ((c : Thread nD τ).loc main_arg4)) (m ((c : Thread nD τ).loc main_arg5))) := by
  show StableHlo.after hostOps5 (W12 m ρ c) (Proc.devRef .tc main_v4) = _
  after_results
  exact h0_W12 m ρ c
theorem src_W13 : W13 m ρ c (Proc.devRef .tc main_v6) = (val_main_v8 (F := Ideal) (m ((c : Thread nD τ).loc main_arg1))) := by
  show StableHlo.after hostOps5 (W12 m ρ c) (Proc.devRef .tc main_v6) = _
  after_results
  exact src_W12 m ρ c
theorem dst_W13 : W13 m ρ c (Proc.devRef .tc main_v7) = (val_main_v11 (F := Ideal) (m ((c : Thread nD τ).loc main_arg1))) := by
  show StableHlo.after hostOps5 (W12 m ρ c) (Proc.devRef .tc main_v7) = _
  after_results
  exact dst_W12 m ρ c
theorem norm_W13 : W13 m ρ c (Proc.devRef .tc main_v32) = (val_main_v36 (F := Ideal) (m ((c : Thread nD τ).loc main_arg1)) (m ((c : Thread nD τ).loc main_arg2))) := by
  show StableHlo.after hostOps5 (W12 m ρ c) (Proc.devRef .tc main_v32) = _
  after_results
  exact norm_W12 m ρ c
theorem agg_W13 : W13 m ρ c (Proc.devRef .tc main_v101) = val_main_v121 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  show StableHlo.after hostOps5 (W12 m ρ c) (Proc.devRef .tc main_v101) = _
  after_results_simp
  rw [out_W12, src_W12, dst_W12, norm_W12]
  rfl

/-! ## Round 5: launch 5 (boundary 13 to 14) -/

theorem out_W14 : W14 m ρ c (Proc.devRef .tc main_v102) = val_main_v126 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (W14_arr m ρ c 2).trans ?_
  refine (Cert.KernelIdeal.Mix5.value (V13 m ρ) c).trans ?_
  rw [ref_mix5]
  show mix (W13 m ρ c (Proc.devRef .tc main_v101)) (W13 m ρ c (Proc.devRef .tc main_v4)) = _
  rw [agg_W13 m ρ c, h0_W13 m ρ c]

theorem h0_W14 : W14 m ρ c (Proc.devRef .tc main_v4) = (val_main_v4 (F := Ideal) (m ((c : Thread nD τ).loc main_arg0)) (m ((c : Thread nD τ).loc main_arg4)) (m ((c : Thread nD τ).loc main_arg5))) :=
  ((W14_arr m ρ c 1).trans (((dat5 (V13 m ρ) c).arrAt_in 1 rfl _).trans (A_eq5 (V13 m ρ) c 1))).trans (h0_W13 m ρ c)
theorem src_W14 : W14 m ρ c (Proc.devRef .tc main_v6) = (val_main_v8 (F := Ideal) (m ((c : Thread nD τ).loc main_arg1))) :=
  (W14_of_ne m ρ c main_v6 (by decide)).trans (src_W13 m ρ c)
theorem dst_W14 : W14 m ρ c (Proc.devRef .tc main_v7) = (val_main_v11 (F := Ideal) (m ((c : Thread nD τ).loc main_arg1))) :=
  (W14_of_ne m ρ c main_v7 (by decide)).trans (dst_W13 m ρ c)
theorem norm_W14 : W14 m ρ c (Proc.devRef .tc main_v32) = (val_main_v36 (F := Ideal) (m ((c : Thread nD τ).loc main_arg1)) (m ((c : Thread nD τ).loc main_arg2))) :=
  (W14_of_ne m ρ c main_v32 (by decide)).trans (norm_W13 m ρ c)

/-! ## Pooling, and the classifier -/

theorem arg3_W15 : W15 m ρ c (Proc.devRef .tc main_arg3) = m ((c : Thread nD τ).loc main_arg3) :=
  (W16_of_ne m ρ c main_arg3 (by decide)).symm.trans (W16_main_arg3 m ρ c)

theorem arg3_W14 : W14 m ρ c (Proc.devRef .tc main_arg3) = m ((c : Thread nD τ).loc main_arg3) := by
  refine Eq.trans ?_ (arg3_W15 m ρ c)
  show _ = StableHlo.after hostOps6 (W14 m ρ c) (Proc.devRef .tc main_arg3)
  after_results

theorem arg6_W15 : W15 m ρ c (Proc.devRef .tc main_arg6) = m ((c : Thread nD τ).loc main_arg6) :=
  ((W16_arr m ρ c 1).trans (((dat6 (V15 m ρ) c).arrAt_in 1 rfl _).trans (A_eq6 (V15 m ρ) c 1))).symm.trans (W16_main_arg6 m ρ c)

theorem arg7_W15 : W15 m ρ c (Proc.devRef .tc main_arg7) = m ((c : Thread nD τ).loc main_arg7) :=
  ((W16_arr m ρ c 2).trans (((dat6 (V15 m ρ) c).arrAt_in 2 rfl _).trans (A_eq6 (V15 m ρ) c 2))).symm.trans (W16_main_arg7 m ρ c)

theorem pooled_W15 : W15 m ρ c (Proc.devRef .tc main_v114)
    = val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps6 (W14 m ρ c) (Proc.devRef .tc main_v114) = _
  after_results_simp
  rw [out_W14, arg3_W14]
  rfl

/-- THE RESULT: at the last boundary the result buffer holds the reference's result of the same arguments. -/
theorem result : W16 m ρ c (Proc.devRef .tc main_v115)
    = val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W16_arr m ρ c 3).trans ?_
  refine (Cert.KernelIdeal.Head6.value (V15 m ρ) c).trans ?_
  rw [Cert.Stages.ref_head]
  show Cert.Stages.head (F := Ideal) (W15 m ρ c (Proc.devRef .tc main_v114)) (W15 m ρ c (Proc.devRef .tc main_arg6))
      (W15 m ρ c (Proc.devRef .tc main_arg7)) = _
  rw [pooled_W15 m ρ c, arg6_W15 m ρ c, arg7_W15 m ρ c]

end Cert.KernelIdeal.Fold

end
-- ==== Proof.lean ====
/-
  A graph network with personalised-PageRank propagation: the kernel against its reference, on the extended reals.

  Both programs compute, from node features x, an edge list with weights, graph ids and two dense layers' parameters:
  h₀ = max (x · W₁ + b₁, 0); the edges with one self-loop per node appended, each weight normalised by the reciprocal
  square roots of its endpoints' summed weights; five times h ← 0.8 · (Σ over edges into a node of the normalised
  weight times the source's row of h) + 0.2 · h₀; the mean of the rows of each graph; and the row-wise log-softmax of
  pooled · W₂ + b₂. The kernel computes the first layer, the five mixing steps and the classifier in seven pipelined
  launches and everything else with the same host operations as the reference, in the same order.

  At the ideal values the two results are equal entry by entry, for every input: the changes of float format on the way
  into a product are the identity; a product accumulated into zeros is the plain sum over the contracted index, as the
  host's product is; a block of rows of a product depends on the same rows of the left operand, so the ten row blocks a
  launch writes are the rows of one whole-array layer; the mixing step and the log-softmax apply the same extended-real
  operations in the same order on both sides, with the same literal words. No algebraic law that would need finite
  inputs is used, so the precondition is never opened.

  The three programs run: the two kernels by their generated frame certificates, the reference by its generated run with
  the result dropped. The idealization rewrote no operation, so there is nothing to preserve.
-/
import proofs.«101261_j58583353918037_1_alg».proof.Defs
import proofs.«101261_j58583353918037_1_alg».proof.Proof.Gen.Kernel
import proofs.«101261_j58583353918037_1_alg».proof.Proof.Gen.Kernel.Skeleton
import proofs.«101261_j58583353918037_1_alg».proof.Proof.Gen.Kernel.Launch
import proofs.«101261_j58583353918037_1_alg».proof.Proof.Gen.Kernel.Points
import proofs.«101261_j58583353918037_1_alg».proof.Proof.Gen.Kernel.Frame
import proofs.«101261_j58583353918037_1_alg».proof.Proof.Gen.KernelIdeal
import proofs.«101261_j58583353918037_1_alg».proof.Proof.Gen.KernelIdeal.Skeleton
import proofs.«101261_j58583353918037_1_alg».proof.Proof.Gen.KernelIdeal.Launch
import proofs.«101261_j58583353918037_1_alg».proof.Proof.Gen.KernelIdeal.Points
import proofs.«101261_j58583353918037_1_alg».proof.Proof.Gen.KernelIdeal.Frame
import proofs.«101261_j58583353918037_1_alg».proof.Proof.Gen.ReferenceIdeal
import proofs.«101261_j58583353918037_1_alg».proof.Proof.Gen.Pre_finite_inputs
import proofs.«101261_j58583353918037_1_alg».proof.Proof.Gen.ReferenceIdeal.Read
import proofs.«101261_j58583353918037_1_alg».proof.Proof.KernelRun
import proofs.«101261_j58583353918037_1_alg».proof.Proof.FoldB
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end, the kernel's result buffer at the last boundary's
    contents, which are the reference's result of the same arguments. -/
theorem algebraic : Cert.algebraic_KernelIdeal_ReferenceIdeal := by
  intro m ρ m' ρ' _ hagree
  refine ⟨fun c => Cert.KernelIdeal.Gen.W16 m ρ c (Proc.devRef .tc Cert.KernelIdeal.main_v115),
    Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  show _ = Cert.KernelIdeal.Gen.W16 m ρ c (Proc.devRef .tc Cert.KernelIdeal.main_v115)
  rw [Cert.ReferenceIdeal.Read.val_main_v143_eq, Cert.KernelIdeal.Fold.result m ρ c, e0, e1, e2, e3, e4, e5, e6, e7]

theorem claim : Cert.Claim := ⟨Cert.Kernel.Gen.facts, Cert.KernelIdeal.Gen.facts, Cert.ReferenceIdeal.Gen.facts,
  Cert.Pre_finite_inputs.Gen.facts, frame_kernel, frame_kernelIdeal, frame_reference, trivial, algebraic⟩

end Cert.Proof

end
